-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x1080x1920 : Shape := ⟨4, ![4, 3, 1080, 1920]⟩
abbrev S4x2x1080x1920 : Shape := ⟨4, ![4, 2, 1080, 1920]⟩
abbrev S_ : Shape := ⟨0, ![]⟩

class Facts : Prop where
  bcast_S_S4x3x1080x1920 : S_.BroadcastsInDim S4x3x1080x1920 (![] : Fin 0 → Fin S4x3x1080x1920.rank)
  reducesTo_S4x3x1080x1920_S_d0_1_2_3 : S4x3x1080x1920.ReducesTo [0, 1, 2, 3] S_
  h_S_ : 0 < S_.numel
  bcast_S_S4x2x1080x1920 : S_.BroadcastsInDim S4x2x1080x1920 (![] : Fin 0 → Fin S4x2x1080x1920.rank)
  reducesTo_S4x2x1080x1920_S_d0_1_2_3 : S4x2x1080x1920.ReducesTo [0, 1, 2, 3] S_

variable [Facts]

def fn {F : FTy → Type} [FloatOps F] (main_arg0 : FVec F S4x3x1080x1920 .f32) (main_arg1 : FVec F S4x2x1080x1920 .f32) : IVec S_ 1 :=
  let main_v0 : FVec F S4x3x1080x1920 .f32 := Host.absf main_arg0
  let main_cst : FVec F S_ .f32 := constant S_ .f32 0x7F800000#32
  let main_v1 : FVec F S4x3x1080x1920 .f32 := broadcastInDim S4x3x1080x1920 ![] bcast_S_S4x3x1080x1920 main_cst
  let main_v2 : IVec S4x3x1080x1920 1 := cmpf .olt main_v0 main_v1
  let main_c : IVec S_ 1 := constantI S_ 1 1#1
  let main_v3 : IVec S_ 1 := (fun x v => Host.reduce IntOp.andi x v reducesTo_S4x3x1080x1920_S_d0_1_2_3 h_S_) main_v2 main_c
  let main_v4 : FVec F S4x2x1080x1920 .f32 := Host.absf main_arg1
  let main_cst_0 : FVec F S_ .f32 := constant S_ .f32 0x7F800000#32
  let main_v5 : FVec F S4x2x1080x1920 .f32 := broadcastInDim S4x2x1080x1920 ![] bcast_S_S4x2x1080x1920 main_cst_0
  let main_v6 : IVec S4x2x1080x1920 1 := cmpf .olt main_v4 main_v5
  let main_c_1 : IVec S_ 1 := constantI S_ 1 1#1
  let main_v7 : IVec S_ 1 := (fun x v => Host.reduce IntOp.andi x v reducesTo_S4x2x1080x1920_S_d0_1_2_3 h_S_) main_v6 main_c_1
  let main_v8 : IVec S_ 1 := andi main_v3 main_v7
  main_v8
-- ==== Kernel.lean ====
abbrev S4x3x1080x1920 : Shape := ⟨4, ![4, 3, 1080, 1920]⟩
abbrev S4x2x1080x1920 : Shape := ⟨4, ![4, 2, 1080, 1920]⟩
abbrev S4x4x1080x1920 : Shape := ⟨4, ![4, 4, 1080, 1920]⟩
abbrev S4x2x40x1920 : Shape := ⟨4, ![4, 2, 40, 1920]⟩
abbrev S4x4x40x1920 : Shape := ⟨4, ![4, 4, 40, 1920]⟩
abbrev S4x1x40x1920 : Shape := ⟨4, ![4, 1, 40, 1920]⟩
abbrev S4x40x1920 : Shape := ⟨3, ![4, 40, 1920]⟩
abbrev S1x40x1 : Shape := ⟨3, ![1, 40, 1]⟩
abbrev S1x1x1920 : Shape := ⟨3, ![1, 1, 1920]⟩
abbrev S4x1x1 : Shape := ⟨3, ![4, 1, 1]⟩
abbrev S1x4x40x1920 : Shape := ⟨4, ![1, 4, 40, 1920]⟩
abbrev S4x1080x1920x3 : Shape := ⟨4, ![4, 1080, 1920, 3]⟩
abbrev S8294400x3 : Shape := ⟨2, ![8294400, 3]⟩
abbrev S4x8294400 : Shape := ⟨2, ![4, 8294400]⟩
abbrev S4x8294400x1 : Shape := ⟨3, ![4, 8294400, 1]⟩
abbrev S1x8294400x3 : Shape := ⟨3, ![1, 8294400, 3]⟩
abbrev S4x8294400x3 : Shape := ⟨3, ![4, 8294400, 3]⟩
abbrev S33177600x3 : Shape := ⟨2, ![33177600, 3]⟩
abbrev S33177600 : Shape := ⟨1, ![33177600]⟩
abbrev S_ : Shape := ⟨0, ![]⟩
abbrev S33177600x1 : Shape := ⟨2, ![33177600, 1]⟩

abbrev nBuf : Space → Nat
  | .hbm => 28
  | .vmem => 6
  | .smem => 0
  | _ => 0

abbrev bufTy : (tb : Table) → Fin (tcTables nBuf tb) → BufTy
  | .hbm, ⟨0, _⟩ => ⟨S4x3x1080x1920, .f32⟩
  | .hbm, ⟨1, _⟩ => ⟨S4x2x1080x1920, .f32⟩
  | .hbm, ⟨2, _⟩ => ⟨S4x4x1080x1920, .f32⟩
  | .hbm, ⟨3, _⟩ => ⟨S4x4x1080x1920, .i32⟩
  | .hbm, ⟨4, _⟩ => ⟨S4x1080x1920x3, .f32⟩
  | .hbm, ⟨5, _⟩ => ⟨S8294400x3, .f32⟩
  | .hbm, ⟨6, _⟩ => ⟨S4x8294400, .f32⟩
  | .hbm, ⟨7, _⟩ => ⟨S4x8294400, .i32⟩
  | .hbm, ⟨8, _⟩ => ⟨S4x8294400x1, .f32⟩
  | .hbm, ⟨9, _⟩ => ⟨S1x8294400x3, .f32⟩
  | .hbm, ⟨10, _⟩ => ⟨S4x8294400x3, .f32⟩
  | .hbm, ⟨11, _⟩ => ⟨S4x8294400x3, .f32⟩
  | .hbm, ⟨12, _⟩ => ⟨S4x8294400x3, .f32⟩
  | .hbm, ⟨13, _⟩ => ⟨S33177600x3, .f32⟩
  | .hbm, ⟨14, _⟩ => ⟨S33177600, .i32⟩
  | .hbm, ⟨15, _⟩ => ⟨S_, .f32⟩
  | .hbm, ⟨16, _⟩ => ⟨S8294400x3, .f32⟩
  | .hbm, ⟨17, _⟩ => ⟨S_, .i32⟩
  | .hbm, ⟨18, _⟩ => ⟨S33177600, .i32⟩
  | .hbm, ⟨19, _⟩ => ⟨S33177600, .i1⟩
  | .hbm, ⟨20, _⟩ => ⟨S_, .i32⟩
  | .hbm, ⟨21, _⟩ => ⟨S33177600, .i32⟩
  | .hbm, ⟨22, _⟩ => ⟨S33177600, .i32⟩
  | .hbm, ⟨23, _⟩ => ⟨S33177600, .i32⟩
  | .hbm, ⟨24, _⟩ => ⟨S33177600x1, .i32⟩
  | .hbm, ⟨25, _⟩ => ⟨S8294400x3, .f32⟩
  | .hbm, ⟨26, _⟩ => ⟨S4x1080x1920x3, .f32⟩
  | .hbm, ⟨27, _⟩ => ⟨S4x3x1080x1920, .f32⟩
  | .local _ .vmem, ⟨0, _⟩ => ⟨S4x2x40x1920, .f32⟩
  | .local _ .vmem, ⟨1, _⟩ => ⟨S4x2x40x1920, .f32⟩
  | .local _ .vmem, ⟨2, _⟩ => ⟨S4x4x40x1920, .f32⟩
  | .local _ .vmem, ⟨3, _⟩ => ⟨S4x4x40x1920, .f32⟩
  | .local _ .vmem, ⟨4, _⟩ => ⟨S4x4x40x1920, .i32⟩
  | .local _ .vmem, ⟨5, _⟩ => ⟨S4x4x40x1920, .i32⟩
  | _, _ => ⟨S4x3x1080x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![27], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S4x2x40x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4x40x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x40x1920 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x2x40x1920_S4x2x40x1920_0_0_0_0 : ∀ a, (![0, 0, 0, 0] : Fin 4 → Nat) a + S4x2x40x1920.size a ≤ S4x2x40x1920.size a
  h_S4x2x40x1920 : 0 < S4x2x40x1920.numel
  slices_S4x2x40x1920_o0_0_0_0_S4x1x40x1920 : S4x2x40x1920.Slices ![0, 0, 0, 0] S4x1x40x1920
  shapeCasts_S4x1x40x1920_S4x40x1920 : S4x1x40x1920.ShapeCasts S4x40x1920
  slices_S4x2x40x1920_o0_1_0_0_S4x1x40x1920 : S4x2x40x1920.Slices ![0, 1, 0, 0] S4x1x40x1920
  iota_S1x40x1_d1_w32 : S1x40x1.Iotas .tc 32 [1]
  iota_S1x1x1920_d2_w32 : S1x1x1920.Iotas .tc 32 [2]
  iota_S4x1x1_d0_w32 : S4x1x1.Iotas .tc 32 [0]
  broadcasts_S1x40x1_S4x40x1920 : S1x40x1.Broadcasts S4x40x1920
  broadcasts_S1x1x1920_S4x40x1920 : S1x1x1920.Broadcasts S4x40x1920
  broadcasts_S4x1x1_S4x40x1920 : S4x1x1.Broadcasts S4x40x1920
  inb_S4x4x40x1920_S1x4x40x1920_0_0_0_0 : ∀ a, (![0, 0, 0, 0] : Fin 4 → Nat) a + S1x4x40x1920.size a ≤ S4x4x40x1920.size a
  h_S1x4x40x1920 : 0 < S1x4x40x1920.numel
  shapeCasts_S1x4x40x1920_S4x40x1920 : S1x4x40x1920.ShapeCasts S4x40x1920
  shapeCasts_S4x40x1920_S1x4x40x1920 : S4x40x1920.ShapeCasts S1x4x40x1920
  inb_S4x4x40x1920_S1x4x40x1920_1_0_0_0 : ∀ a, (![1, 0, 0, 0] : Fin 4 → Nat) a + S1x4x40x1920.size a ≤ S4x4x40x1920.size a
  inb_S4x4x40x1920_S1x4x40x1920_2_0_0_0 : ∀ a, (![2, 0, 0, 0] : Fin 4 → Nat) a + S1x4x40x1920.size a ≤ S4x4x40x1920.size a
  inb_S4x4x40x1920_S1x4x40x1920_3_0_0_0 : ∀ a, (![3, 0, 0, 0] : Fin 4 → Nat) a + S1x4x40x1920.size a ≤ S4x4x40x1920.size a
  transposes_S4x3x1080x1920_S4x1080x1920x3_0_2_3_1 : S4x3x1080x1920.Transposes [0, 2, 3, 1] S4x1080x1920x3
  shapeCasts_S4x1080x1920x3_S8294400x3 : S4x1080x1920x3.ShapeCasts S8294400x3
  shapeCasts_S4x4x1080x1920_S4x8294400 : S4x4x1080x1920.ShapeCasts S4x8294400
  bcast_S4x8294400_S4x8294400x1_0_1 : S4x8294400.BroadcastsInDim S4x8294400x1 (![0, 1] : Fin 2 → Fin S4x8294400x1.rank)
  bcast_S8294400x3_S1x8294400x3_1_2 : S8294400x3.BroadcastsInDim S1x8294400x3 (![1, 2] : Fin 2 → Fin S1x8294400x3.rank)
  bcast_S4x8294400x1_S4x8294400x3_0_1_2 : S4x8294400x1.BroadcastsInDim S4x8294400x3 (![0, 1, 2] : Fin 3 → Fin S4x8294400x3.rank)
  bcast_S1x8294400x3_S4x8294400x3_0_1_2 : S1x8294400x3.BroadcastsInDim S4x8294400x3 (![0, 1, 2] : Fin 3 → Fin S4x8294400x3.rank)
  shapeCasts_S4x8294400x3_S33177600x3 : S4x8294400x3.ShapeCasts S33177600x3
  shapeCasts_S4x8294400_S33177600 : S4x8294400.ShapeCasts S33177600
  bcast_S_S8294400x3 : S_.BroadcastsInDim S8294400x3 (![] : Fin 0 → Fin S8294400x3.rank)
  bcast_S_S33177600 : S_.BroadcastsInDim S33177600 (![] : Fin 0 → Fin S33177600.rank)
  bcast_S33177600_S33177600x1_0 : S33177600.BroadcastsInDim S33177600x1 (![0] : Fin 1 → Fin S33177600x1.rank)
  shapeCasts_S8294400x3_S4x1080x1920x3 : S8294400x3.ShapeCasts S4x1080x1920x3
  transposes_S4x1080x1920x3_S4x3x1080x1920_0_3_1_2 : S4x1080x1920x3.Transposes [0, 3, 1, 2] S4x3x1080x1920
  scatter_S8294400x3_S33177600x1_S33177600x3_1_0_0_1_wf : ScatterDims.WF S8294400x3 S33177600x1 S33177600x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2x40x1920.size a ≤ S4x2x1080x1920.size a
  hwx0_0 : ∀ i : grid0.Coords, EltTy.bits .f32 = 32 ∨ (Rect.block (s := S4x2x1080x1920) S4x2x40x1920.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x4x40x1920.size a ≤ S4x4x1080x1920.size a
  hwx0_1 : ∀ i : grid0.Coords, EltTy.bits .f32 = 32 ∨ (Rect.block (s := S4x4x1080x1920) S4x4x40x1920.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4x40x1920.size a ≤ S4x4x1080x1920.size a
  hwx0_2 : ∀ i : grid0.Coords, EltTy.bits .i32 = 32 ∨ (Rect.block (s := S4x4x1080x1920) S4x4x40x1920.size (cc0_transform_2 i) (hinb0_2 i)).WholeWords (EltTy.packing .i32)

variable [Facts₀]

def scatter_S8294400x3_S33177600x1_S33177600x3_1_0_0_1 : ScatterDims S8294400x3 S33177600x1 S33177600x3 where
  updateWindowDims := [1]
  insertedWindowDims := [0]
  scatterDimsToOperandDims := [0]
  indexVectorDim := 1
  wf := scatter_S8294400x3_S33177600x1_S33177600x3_1_0_0_1_wf

abbrev win0_0 : Pipeline.Window sig grid0 :=
  Pipeline.Window.ofSpec (Memref.whole main_arg1) S4x2x40x1920.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4x4x40x1920.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S4x4x40x1920.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x1080x1920 : Shape := ⟨4, ![4, 3, 1080, 1920]⟩
abbrev S4x2x1080x1920 : Shape := ⟨4, ![4, 2, 1080, 1920]⟩
abbrev S4x1x1080x1920 : Shape := ⟨4, ![4, 1, 1080, 1920]⟩
abbrev S4x1080x1920 : Shape := ⟨3, ![4, 1080, 1920]⟩
abbrev S1080 : Shape := ⟨1, ![1080]⟩
abbrev S1x1080x1 : Shape := ⟨3, ![1, 1080, 1]⟩
abbrev S1920 : Shape := ⟨1, ![1920]⟩
abbrev S1x1x1920 : Shape := ⟨3, ![1, 1, 1920]⟩
abbrev S4 : Shape := ⟨1, ![4]⟩
abbrev S_ : Shape := ⟨0, ![]⟩
abbrev S4x1x1 : Shape := ⟨3, ![4, 1, 1]⟩
abbrev S4x1080x1920x3 : Shape := ⟨4, ![4, 1080, 1920, 3]⟩
abbrev S8294400x3 : Shape := ⟨2, ![8294400, 3]⟩
abbrev S8294400 : Shape := ⟨1, ![8294400]⟩
abbrev S8294400x1 : Shape := ⟨2, ![8294400, 1]⟩

abbrev nBuf : Space → Nat
  | .hbm => 245
  | .vmem => 0
  | .smem => 0
  | _ => 0

abbrev hbmTy0_0 (i : Nat) : BufTy := match i % 128 with
  | 0 => ⟨S4x3x1080x1920, .f32⟩
  | 1 => ⟨S4x2x1080x1920, .f32⟩
  | 2 => ⟨S4x1x1080x1920, .f32⟩
  | 3 => ⟨S4x1080x1920, .f32⟩
  | 4 => ⟨S4x1x1080x1920, .f32⟩
  | 5 => ⟨S4x1080x1920, .f32⟩
  | 6 => ⟨S4x1080x1920, .f32⟩
  | 7 => ⟨S4x1080x1920, .f32⟩
  | 8 => ⟨S4x1080x1920, .i32⟩
  | 9 => ⟨S4x1080x1920, .i32⟩
  | 10 => ⟨S1080, .i32⟩
  | 11 => ⟨S1x1080x1, .i32⟩
  | 12 => ⟨S1920, .i32⟩
  | 13 => ⟨S1x1x1920, .i32⟩
  | 14 => ⟨S4, .i32⟩
  | 15 => ⟨S_, .i32⟩
  | 16 => ⟨S4, .i32⟩
  | 17 => ⟨S4, .i32⟩
  | 18 => ⟨S4x1x1, .i32⟩
  | 19 => ⟨S4x1080x1920x3, .f32⟩
  | 20 => ⟨S8294400x3, .f32⟩
  | 21 => ⟨S_, .f32⟩
  | 22 => ⟨S8294400x3, .f32⟩
  | 23 => ⟨S_, .f32⟩
  | 24 => ⟨S4x1080x1920, .f32⟩
  | 25 => ⟨S4x1080x1920, .f32⟩
  | 26 => ⟨S4x1080x1920, .f32⟩
  | 27 => ⟨S_, .f32⟩
  | 28 => ⟨S4x1080x1920, .f32⟩
  | 29 => ⟨S4x1080x1920, .f32⟩
  | 30 => ⟨S4x1080x1920, .f32⟩
  | 31 => ⟨S_, .i32⟩
  | 32 => ⟨S4x1080x1920, .i32⟩
  | 33 => ⟨S4x1080x1920, .i32⟩
  | 34 => ⟨S4x1080x1920, .i32⟩
  | 35 => ⟨S4x1080x1920, .i32⟩
  | 36 => ⟨S_, .i32⟩
  | 37 => ⟨S4x1080x1920, .i32⟩
  | 38 => ⟨S4x1080x1920, .i32⟩
  | 39 => ⟨S4x1080x1920, .i32⟩
  | 40 => ⟨S4x1080x1920, .i32⟩
  | 41 => ⟨S_, .i32⟩
  | 42 => ⟨S4x1080x1920, .i32⟩
  | 43 => ⟨S4x1080x1920, .i1⟩
  | 44 => ⟨S_, .i32⟩
  | 45 => ⟨S4x1080x1920, .i32⟩
  | 46 => ⟨S4x1080x1920, .i1⟩
  | 47 => ⟨S4x1080x1920, .i1⟩
  | 48 => ⟨S_, .i32⟩
  | 49 => ⟨S4x1080x1920, .i32⟩
  | 50 => ⟨S4x1080x1920, .i1⟩
  | 51 => ⟨S4x1080x1920, .i1⟩
  | 52 => ⟨S_, .i32⟩
  | 53 => ⟨S4x1080x1920, .i32⟩
  | 54 => ⟨S4x1080x1920, .i1⟩
  | 55 => ⟨S4x1080x1920, .i1⟩
  | 56 => ⟨S_, .i32⟩
  | 57 => ⟨S4x1080x1920, .i32⟩
  | 58 => ⟨S4x1080x1920, .i32⟩
  | 59 => ⟨S4x1080x1920, .i32⟩
  | 60 => ⟨S4x1080x1920, .i32⟩
  | 61 => ⟨S4x1080x1920, .i32⟩
  | 62 => ⟨S_, .i32⟩
  | 63 => ⟨S_, .i32⟩
  | 64 => ⟨S4x1080x1920, .i32⟩
  | 65 => ⟨S4x1080x1920, .i32⟩
  | 66 => ⟨S8294400, .i32⟩
  | 67 => ⟨S4x1080x1920, .f32⟩
  | 68 => ⟨S8294400, .f32⟩
  | 69 => ⟨S8294400x1, .f32⟩
  | 70 => ⟨S8294400x3, .f32⟩
  | 71 => ⟨S8294400x3, .f32⟩
  | 72 => ⟨S_, .i32⟩
  | 73 => ⟨S8294400, .i32⟩
  | 74 => ⟨S8294400, .i1⟩
  | 75 => ⟨S_, .i32⟩
  | 76 => ⟨S8294400, .i32⟩
  | 77 => ⟨S8294400, .i32⟩
  | 78 => ⟨S8294400, .i32⟩
  | 79 => ⟨S8294400x1, .i32⟩
  | 80 => ⟨S8294400x3, .f32⟩
  | 81 => ⟨S_, .f32⟩
  | 82 => ⟨S4x1080x1920, .f32⟩
  | 83 => ⟨S4x1080x1920, .f32⟩
  | 84 => ⟨S4x1080x1920, .f32⟩
  | 85 => ⟨S4x1080x1920, .f32⟩
  | 86 => ⟨S_, .i32⟩
  | 87 => ⟨S4x1080x1920, .i32⟩
  | 88 => ⟨S4x1080x1920, .i32⟩
  | 89 => ⟨S4x1080x1920, .i32⟩
  | 90 => ⟨S4x1080x1920, .i32⟩
  | 91 => ⟨S_, .i32⟩
  | 92 => ⟨S4x1080x1920, .i32⟩
  | 93 => ⟨S4x1080x1920, .i32⟩
  | 94 => ⟨S4x1080x1920, .i32⟩
  | 95 => ⟨S4x1080x1920, .i32⟩
  | 96 => ⟨S_, .i32⟩
  | 97 => ⟨S4x1080x1920, .i32⟩
  | 98 => ⟨S4x1080x1920, .i1⟩
  | 99 => ⟨S_, .i32⟩
  | 100 => ⟨S4x1080x1920, .i32⟩
  | 101 => ⟨S4x1080x1920, .i1⟩
  | 102 => ⟨S4x1080x1920, .i1⟩
  | 103 => ⟨S_, .i32⟩
  | 104 => ⟨S4x1080x1920, .i32⟩
  | 105 => ⟨S4x1080x1920, .i1⟩
  | 106 => ⟨S4x1080x1920, .i1⟩
  | 107 => ⟨S_, .i32⟩
  | 108 => ⟨S4x1080x1920, .i32⟩
  | 109 => ⟨S4x1080x1920, .i1⟩
  | 110 => ⟨S4x1080x1920, .i1⟩
  | 111 => ⟨S_, .i32⟩
  | 112 => ⟨S4x1080x1920, .i32⟩
  | 113 => ⟨S4x1080x1920, .i32⟩
  | 114 => ⟨S4x1080x1920, .i32⟩
  | 115 => ⟨S4x1080x1920, .i32⟩
  | 116 => ⟨S4x1080x1920, .i32⟩
  | 117 => ⟨S_, .i32⟩
  | 118 => ⟨S_, .i32⟩
  | 119 => ⟨S4x1080x1920, .i32⟩
  | 120 => ⟨S4x1080x1920, .i32⟩
  | 121 => ⟨S8294400, .i32⟩
  | 122 => ⟨S4x1080x1920, .f32⟩
  | 123 => ⟨S8294400, .f32⟩
  | 124 => ⟨S8294400x1, .f32⟩
  | 125 => ⟨S8294400x3, .f32⟩
  | 126 => ⟨S8294400x3, .f32⟩
  | 127 => ⟨S_, .i32⟩
  | _ => ⟨S4x3x1080x1920, .f32⟩

abbrev hbmTy0_1 (i : Nat) : BufTy := match i % 128 with
  | 0 => ⟨S8294400, .i32⟩
  | 1 => ⟨S8294400, .i1⟩
  | 2 => ⟨S_, .i32⟩
  | 3 => ⟨S8294400, .i32⟩
  | 4 => ⟨S8294400, .i32⟩
  | 5 => ⟨S8294400, .i32⟩
  | 6 => ⟨S8294400x1, .i32⟩
  | 7 => ⟨S8294400x3, .f32⟩
  | 8 => ⟨S4x1080x1920, .f32⟩
  | 9 => ⟨S_, .f32⟩
  | 10 => ⟨S4x1080x1920, .f32⟩
  | 11 => ⟨S4x1080x1920, .f32⟩
  | 12 => ⟨S4x1080x1920, .f32⟩
  | 13 => ⟨S_, .i32⟩
  | 14 => ⟨S4x1080x1920, .i32⟩
  | 15 => ⟨S4x1080x1920, .i32⟩
  | 16 => ⟨S4x1080x1920, .i32⟩
  | 17 => ⟨S4x1080x1920, .i32⟩
  | 18 => ⟨S_, .i32⟩
  | 19 => ⟨S4x1080x1920, .i32⟩
  | 20 => ⟨S4x1080x1920, .i32⟩
  | 21 => ⟨S4x1080x1920, .i32⟩
  | 22 => ⟨S4x1080x1920, .i32⟩
  | 23 => ⟨S_, .i32⟩
  | 24 => ⟨S4x1080x1920, .i32⟩
  | 25 => ⟨S4x1080x1920, .i1⟩
  | 26 => ⟨S_, .i32⟩
  | 27 => ⟨S4x1080x1920, .i32⟩
  | 28 => ⟨S4x1080x1920, .i1⟩
  | 29 => ⟨S4x1080x1920, .i1⟩
  | 30 => ⟨S_, .i32⟩
  | 31 => ⟨S4x1080x1920, .i32⟩
  | 32 => ⟨S4x1080x1920, .i1⟩
  | 33 => ⟨S4x1080x1920, .i1⟩
  | 34 => ⟨S_, .i32⟩
  | 35 => ⟨S4x1080x1920, .i32⟩
  | 36 => ⟨S4x1080x1920, .i1⟩
  | 37 => ⟨S4x1080x1920, .i1⟩
  | 38 => ⟨S_, .i32⟩
  | 39 => ⟨S4x1080x1920, .i32⟩
  | 40 => ⟨S4x1080x1920, .i32⟩
  | 41 => ⟨S4x1080x1920, .i32⟩
  | 42 => ⟨S4x1080x1920, .i32⟩
  | 43 => ⟨S4x1080x1920, .i32⟩
  | 44 => ⟨S_, .i32⟩
  | 45 => ⟨S_, .i32⟩
  | 46 => ⟨S4x1080x1920, .i32⟩
  | 47 => ⟨S4x1080x1920, .i32⟩
  | 48 => ⟨S8294400, .i32⟩
  | 49 => ⟨S4x1080x1920, .f32⟩
  | 50 => ⟨S8294400, .f32⟩
  | 51 => ⟨S8294400x1, .f32⟩
  | 52 => ⟨S8294400x3, .f32⟩
  | 53 => ⟨S8294400x3, .f32⟩
  | 54 => ⟨S_, .i32⟩
  | 55 => ⟨S8294400, .i32⟩
  | 56 => ⟨S8294400, .i1⟩
  | 57 => ⟨S_, .i32⟩
  | 58 => ⟨S8294400, .i32⟩
  | 59 => ⟨S8294400, .i32⟩
  | 60 => ⟨S8294400, .i32⟩
  | 61 => ⟨S8294400x1, .i32⟩
  | 62 => ⟨S8294400x3, .f32⟩
  | 63 => ⟨S4x1080x1920, .f32⟩
  | 64 => ⟨S4x1080x1920, .f32⟩
  | 65 => ⟨S_, .i32⟩
  | 66 => ⟨S4x1080x1920, .i32⟩
  | 67 => ⟨S4x1080x1920, .i32⟩
  | 68 => ⟨S4x1080x1920, .i32⟩
  | 69 => ⟨S4x1080x1920, .i32⟩
  | 70 => ⟨S_, .i32⟩
  | 71 => ⟨S4x1080x1920, .i32⟩
  | 72 => ⟨S4x1080x1920, .i32⟩
  | 73 => ⟨S4x1080x1920, .i32⟩
  | 74 => ⟨S4x1080x1920, .i32⟩
  | 75 => ⟨S_, .i32⟩
  | 76 => ⟨S4x1080x1920, .i32⟩
  | 77 => ⟨S4x1080x1920, .i1⟩
  | 78 => ⟨S_, .i32⟩
  | 79 => ⟨S4x1080x1920, .i32⟩
  | 80 => ⟨S4x1080x1920, .i1⟩
  | 81 => ⟨S4x1080x1920, .i1⟩
  | 82 => ⟨S_, .i32⟩
  | 83 => ⟨S4x1080x1920, .i32⟩
  | 84 => ⟨S4x1080x1920, .i1⟩
  | 85 => ⟨S4x1080x1920, .i1⟩
  | 86 => ⟨S_, .i32⟩
  | 87 => ⟨S4x1080x1920, .i32⟩
  | 88 => ⟨S4x1080x1920, .i1⟩
  | 89 => ⟨S4x1080x1920, .i1⟩
  | 90 => ⟨S_, .i32⟩
  | 91 => ⟨S4x1080x1920, .i32⟩
  | 92 => ⟨S4x1080x1920, .i32⟩
  | 93 => ⟨S4x1080x1920, .i32⟩
  | 94 => ⟨S4x1080x1920, .i32⟩
  | 95 => ⟨S4x1080x1920, .i32⟩
  | 96 => ⟨S_, .i32⟩
  | 97 => ⟨S_, .i32⟩
  | 98 => ⟨S4x1080x1920, .i32⟩
  | 99 => ⟨S4x1080x1920, .i32⟩
  | 100 => ⟨S8294400, .i32⟩
  | 101 => ⟨S4x1080x1920, .f32⟩
  | 102 => ⟨S8294400, .f32⟩
  | 103 => ⟨S8294400x1, .f32⟩
  | 104 => ⟨S8294400x3, .f32⟩
  | 105 => ⟨S8294400x3, .f32⟩
  | 106 => ⟨S_, .i32⟩
  | 107 => ⟨S8294400, .i32⟩
  | 108 => ⟨S8294400, .i1⟩
  | 109 => ⟨S_, .i32⟩
  | 110 => ⟨S8294400, .i32⟩
  | 111 => ⟨S8294400, .i32⟩
  | 112 => ⟨S8294400, .i32⟩
  | 113 => ⟨S8294400x1, .i32⟩
  | 114 => ⟨S8294400x3, .f32⟩
  | 115 => ⟨S4x1080x1920x3, .f32⟩
  | 116 => ⟨S4x3x1080x1920, .f32⟩
  | _ => ⟨S4x3x1080x1920, .f32⟩

abbrev hbmTy (i : Nat) : BufTy := match i / 128 with
  | 0 => hbmTy0_0 i
  | 1 => hbmTy0_1 i
  | _ => ⟨S4x3x1080x1920, .f32⟩

abbrev bufTy : (tb : Table) → Fin (tcTables nBuf tb) → BufTy
  | .hbm, ⟨i, _⟩ => hbmTy i
  | _, _ => ⟨S4x3x1080x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_4 : Ref sig .tc := ⟨.hbm, 41, rfl⟩
abbrev main_v33 : Ref sig .tc := ⟨.hbm, 42, rfl⟩
abbrev main_v34 : Ref sig .tc := ⟨.hbm, 43, rfl⟩
abbrev main_c_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_8 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_9 : Ref sig .tc := ⟨.hbm, 62, rfl⟩
abbrev main_call0_v0 : Ref sig .tc := ⟨.hbm, 63, rfl⟩
abbrev main_call0_v1 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_v57 : Ref sig .tc := ⟨.hbm, 74, rfl⟩
abbrev main_c_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_13 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_c_15 : Ref sig .tc := ⟨.hbm, 96, rfl⟩
abbrev main_v75 : Ref sig .tc := ⟨.hbm, 97, rfl⟩
abbrev main_v76 : Ref sig .tc := ⟨.hbm, 98, rfl⟩
abbrev main_c_16 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_17 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_c_18 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_19 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_20 : Ref sig .tc := ⟨.hbm, 117, rfl⟩
abbrev main_call1_v0 : Ref sig .tc := ⟨.hbm, 118, rfl⟩
abbrev main_call1_v1 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c_21 : Ref sig .tc := ⟨.hbm, 127, rfl⟩
abbrev main_v98 : Ref sig .tc := ⟨.hbm, 128, rfl⟩
abbrev main_v99 : Ref sig .tc := ⟨.hbm, 129, rfl⟩
abbrev main_c_22 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_23 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_c_24 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_c_25 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_26 : Ref sig .tc := ⟨.hbm, 151, rfl⟩
abbrev main_v117 : Ref sig .tc := ⟨.hbm, 152, rfl⟩
abbrev main_v118 : Ref sig .tc := ⟨.hbm, 153, rfl⟩
abbrev main_c_27 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_c_28 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_c_29 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_c_30 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_c_31 : Ref sig .tc := ⟨.hbm, 172, rfl⟩
abbrev main_call2_v0 : Ref sig .tc := ⟨.hbm, 173, rfl⟩
abbrev main_call2_v1 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_c_32 : Ref sig .tc := ⟨.hbm, 182, rfl⟩
abbrev main_v140 : Ref sig .tc := ⟨.hbm, 183, rfl⟩
abbrev main_v141 : Ref sig .tc := ⟨.hbm, 184, rfl⟩
abbrev main_c_33 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_c_34 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_c_35 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_c_36 : Ref sig .tc := ⟨.hbm, 203, rfl⟩
abbrev main_v157 : Ref sig .tc := ⟨.hbm, 204, rfl⟩
abbrev main_v158 : Ref sig .tc := ⟨.hbm, 205, rfl⟩
abbrev main_c_37 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_c_38 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_c_39 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_c_40 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_c_41 : Ref sig .tc := ⟨.hbm, 224, rfl⟩
abbrev main_call3_v0 : Ref sig .tc := ⟨.hbm, 225, rfl⟩
abbrev main_call3_v1 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_c_42 : Ref sig .tc := ⟨.hbm, 234, rfl⟩
abbrev main_v180 : Ref sig .tc := ⟨.hbm, 235, rfl⟩
abbrev main_v181 : Ref sig .tc := ⟨.hbm, 236, rfl⟩
abbrev main_c_43 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩

abbrev nD : Nat := 1
abbrev τ : Topo := Topo.v7x

variable {F : FTy → Type} [FloatOps F]

class Facts₀ : Prop where
  slices_S4x2x1080x1920_S4x1x1080x1920_0_0_0_0 : S4x2x1080x1920.Slices ![0, 0, 0, 0] S4x1x1080x1920
  shapeCasts_S4x1x1080x1920_S4x1080x1920 : S4x1x1080x1920.ShapeCasts S4x1080x1920
  slices_S4x2x1080x1920_S4x1x1080x1920_0_1_0_0 : S4x2x1080x1920.Slices ![0, 1, 0, 0] S4x1x1080x1920
  bcast_S1080_S1x1080x1_1 : S1080.BroadcastsInDim S1x1080x1 (![1] : Fin 1 → Fin S1x1080x1.rank)
  bcast_S1920_S1x1x1920_2 : S1920.BroadcastsInDim S1x1x1920 (![2] : Fin 1 → Fin S1x1x1920.rank)
  bcast_S_S4 : S_.BroadcastsInDim S4 (![] : Fin 0 → Fin S4.rank)
  bcast_S4_S4x1x1_0 : S4.BroadcastsInDim S4x1x1 (![0] : Fin 1 → Fin S4x1x1.rank)
  transposes_S4x3x1080x1920_S4x1080x1920x3_0_2_3_1 : S4x3x1080x1920.Transposes [0, 2, 3, 1] S4x1080x1920x3
  shapeCasts_S4x1080x1920x3_S8294400x3 : S4x1080x1920x3.ShapeCasts S8294400x3
  bcast_S_S8294400x3 : S_.BroadcastsInDim S8294400x3 (![] : Fin 0 → Fin S8294400x3.rank)
  bcast_S_S4x1080x1920 : S_.BroadcastsInDim S4x1080x1920 (![] : Fin 0 → Fin S4x1080x1920.rank)
  bcast_S1x1080x1_S4x1080x1920_0_1_2 : S1x1080x1.BroadcastsInDim S4x1080x1920 (![0, 1, 2] : Fin 3 → Fin S4x1080x1920.rank)
  bcast_S1x1x1920_S4x1080x1920_0_1_2 : S1x1x1920.BroadcastsInDim S4x1080x1920 (![0, 1, 2] : Fin 3 → Fin S4x1080x1920.rank)
  bcast_S4x1x1_S4x1080x1920_0_1_2 : S4x1x1.BroadcastsInDim S4x1080x1920 (![0, 1, 2] : Fin 3 → Fin S4x1080x1920.rank)
  shapeCasts_S4x1080x1920_S8294400 : S4x1080x1920.ShapeCasts S8294400
  bcast_S8294400_S8294400x1_0 : S8294400.BroadcastsInDim S8294400x1 (![0] : Fin 1 → Fin S8294400x1.rank)
  bcast_S8294400x1_S8294400x3_0_1 : S8294400x1.BroadcastsInDim S8294400x3 (![0, 1] : Fin 2 → Fin S8294400x3.rank)
  bcast_S_S8294400 : S_.BroadcastsInDim S8294400 (![] : Fin 0 → Fin S8294400.rank)
  shapeCasts_S8294400x3_S4x1080x1920x3 : S8294400x3.ShapeCasts S4x1080x1920x3
  transposes_S4x1080x1920x3_S4x3x1080x1920_0_3_1_2 : S4x1080x1920x3.Transposes [0, 3, 1, 2] S4x3x1080x1920
  scatter_S8294400x3_S8294400x1_S8294400x3_1_0_0_1_wf : ScatterDims.WF S8294400x3 S8294400x1 S8294400x3 [1] [0] [0] 1

variable [Facts₀]

def scatter_S8294400x3_S8294400x1_S8294400x3_1_0_0_1 : ScatterDims S8294400x3 S8294400x1 S8294400x3 where
  updateWindowDims := [1]
  insertedWindowDims := [0]
  scatterDimsToOperandDims := [0]
  indexVectorDim := 1
  wf := scatter_S8294400x3_S8294400x1_S8294400x3_1_0_0_1_wf

class Facts : Prop extends Facts₀ where

variable [Facts]
-- ==== Proof.WarpSpec.lean ====
/-
  Bilinear forward splatting, read at one pixel.

  A source pixel (n, h, w) carries a displacement (x, y) = (flo[n,1,h,w], flo[n,0,h,w]): x moves it along the rows,
  y along the columns. It lands among the four pixels around (h + x, w + y). Along one axis the lower neighbour
  ⌊x⌋ gets the weight (⌊x⌋ + 1) − x and the upper neighbour ⌊x⌋ + 1 the weight x − ⌊x⌋; a corner's weight is the
  product of its two axis weights. The corner's row is ⌊x⌋ + d + h and its column ⌊y⌋ + d' + w (d, d' ∈ {0, 1}), as
  32-bit integers; inside the image (0 ≤ row < 1080, 0 ≤ column < 1920) its destination is the flat position
  n·(1080·1920) + row·1920 + column, and outside it the sentinel 8294400 = 4·1080·1920, one past the last position,
  which the scatter drops. A negative scatter index is first moved up by 8294400, as array indexing does.

  This file states these scalar formulas once, with the operations the two programs use (the exact operations of
  the extended reals and the 32-bit integer operations), and the weight and destination of corner (d, d') of the
  source pixel at a flat position s = (n·1080 + h)·1920 + w.
-/
import Idealize.ShloMosaic.PureOps
import Idealize.ShloMosaic.PureOps.Ideal
import Idealize.ShloMosaic.Lib.ValueIdx

noncomputable section

namespace Cert.Warp

open Idealize.ShloMosaic Idealize.ShloMosaic.ValueIdx

/-- The displacement field: [4, 2, 1080, 1920], channel 0 the column displacement, channel 1 the row displacement. -/
abbrev Flo := (⟨4, ![4, 2, 1080, 1920]⟩ : Shape).Idx → EReal
/-- The image: [4, 3, 1080, 1920]. -/
abbrev Img := (⟨4, ![4, 3, 1080, 1920]⟩ : Shape).Idx → EReal

/-- The number one as both programs write it. -/
abbrev one : EReal := Ideal.ofBits .f32 0x3F800000#32

/-- The floor of an extended real (the infinities fixed). -/
def fl (x : EReal) : EReal := Ideal.liftRound Int.floor x

/-- The floor as a 32-bit integer. -/
def cell (x : EReal) : BitVec 32 := FloatOps.fptosi (F := Ideal) (φ := .f32) 32 (fl x)

/-- The weight of a neighbour along one axis: the upper one gets x − ⌊x⌋, the lower one (⌊x⌋ + 1) − x. -/
def wAx (upper : Bool) (x : EReal) : EReal := if upper then x - fl x else (fl x + one) - x

/-- The neighbour's coordinate along one axis: ⌊x⌋ + d + the source coordinate. -/
def pos (upper : Bool) (x : EReal) (base : BitVec 32) : BitVec 32 :=
  IntOp.addi (IntOp.addi (cell x) (if upper then 1#32 else 0#32)) base

/-- Row in [0, 1080) and column in [0, 1920), as a one-bit word. -/
def inImage (a b : BitVec 32) : BitVec 1 :=
  IntOp.andi (IntOp.andi (IntOp.andi (IntOp.cmpi .sge a 0#32) (IntOp.cmpi .slt a 1080#32)) (IntOp.cmpi .sge b 0#32))
    (IntOp.cmpi .slt b 1920#32)

/-- The flat destination of (row a, column b) in image nb, or the sentinel outside the image. -/
def dest (nb a b : BitVec 32) : BitVec 32 :=
  Scalar.select (inImage a b) (IntOp.addi (IntOp.addi nb (IntOp.muli a 1920#32)) b) 8294400#32

/-- A negative scatter index counts from the end. -/
def normIdx (a : BitVec 32) : BitVec 32 := Scalar.select (IntOp.cmpi .slt a 0#32) (IntOp.addi a 8294400#32) a

/-- The weight of corner (dx, dy) of source pixel (n, h, w). -/
def Wt (flo : Flo) (dx dy : Bool) (n : Fin 4) (h : Fin 1080) (w : Fin 1920) : EReal :=
  wAx dx (flo (ix4 n 1 h w)) * wAx dy (flo (ix4 n 0 h w))

/-- The destination of corner (dx, dy) of source pixel (n, h, w). -/
def Id (flo : Flo) (dx dy : Bool) (n : Fin 4) (h : Fin 1080) (w : Fin 1920) : BitVec 32 :=
  dest (IntOp.muli (BitVec.ofNat 32 n.val) 2073600#32) (pos dx (flo (ix4 n 1 h w)) (BitVec.ofNat 32 h.val))
    (pos dy (flo (ix4 n 0 h w)) (BitVec.ofNat 32 w.val))

/-! ## A flat position s = (n·1080 + h)·1920 + w -/

/-- Its image number, -/
def cN (s : Nat) : Fin 4 := ⟨s / 2073600 % 4, Nat.mod_lt _ (by decide)⟩
/-- its row, -/
def cH (s : Nat) : Fin 1080 := ⟨s / 1920 % 1080, Nat.mod_lt _ (by decide)⟩
/-- its column. -/
def cW (s : Nat) : Fin 1920 := ⟨s % 1920, Nat.mod_lt _ (by decide)⟩

/-- The scatter index of corner (dx, dy) of the source pixel at flat position s. -/
def idxAt (flo : Flo) (dx dy : Bool) (s : Nat) : BitVec 32 := normIdx (Id flo dx dy (cN s) (cH s) (cW s))

/-- The weight of corner (dx, dy) of the source pixel at flat position s. -/
def wtAt (flo : Flo) (dx dy : Bool) (s : Nat) : EReal := Wt flo dx dy (cN s) (cH s) (cW s)

/-- Channel c of the source pixel at flat position s. -/
def imgAt (img : Img) (s : Nat) (c : Fin 3) : EReal := img (ix4 (cN s) c (cH s) (cW s))

/-- The four corners in the order both programs visit them: (0,0), (0,1), (1,0), (1,1). -/
def cornerX (k : Fin 4) : Bool := match k with | ⟨0, _⟩ => false | ⟨1, _⟩ => false | ⟨2, _⟩ => true | ⟨3, _⟩ => true
def cornerY (k : Fin 4) : Bool := match k with | ⟨0, _⟩ => false | ⟨1, _⟩ => true | ⟨2, _⟩ => false | ⟨3, _⟩ => true

theorem cN_val (s : Nat) (h : s < 8294400) : (cN s).val = s / 2073600 := by
  show s / 2073600 % 4 = s / 2073600; omega
theorem cN_flat (n : Fin 4) (h : Fin 1080) (w : Fin 1920) : cN ((n.val * 1080 + h.val) * 1920 + w.val) = n := by
  apply Fin.ext; show ((n.val * 1080 + h.val) * 1920 + w.val) / 2073600 % 4 = n.val; omega
theorem cH_flat (n : Fin 4) (h : Fin 1080) (w : Fin 1920) : cH ((n.val * 1080 + h.val) * 1920 + w.val) = h := by
  apply Fin.ext; show ((n.val * 1080 + h.val) * 1920 + w.val) / 1920 % 1080 = h.val; omega
theorem cW_flat (n : Fin 4) (h : Fin 1080) (w : Fin 1920) : cW ((n.val * 1080 + h.val) * 1920 + w.val) = w := by
  apply Fin.ext; show ((n.val * 1080 + h.val) * 1920 + w.val) % 1920 = w.val; omega

/-! ## The two planes the splat is made of, for all four corners at once: [4 corners, 4 images, 1080, 1920] -/

/-- Entry (k, n, h, w): the weight of corner k of source pixel (n, h, w). -/
def weights (flo : Flo) : (⟨4, ![4, 4, 1080, 1920]⟩ : Shape).Idx → EReal := fun i =>
  Wt flo (cornerX (i 0)) (cornerY (i 0)) (i 1) (i 2) (i 3)

/-- Entry (k, n, h, w): the destination of corner k of source pixel (n, h, w). -/
def dests (flo : Flo) : (⟨4, ![4, 4, 1080, 1920]⟩ : Shape).Idx → BitVec 32 := fun i =>
  Id flo (cornerX (i 0)) (cornerY (i 0)) (i 1) (i 2) (i 3)

end Cert.Warp

end
-- ==== Proof.KernelBlocks.lean ====
/-
  The kernel's two output blocks at a grid point, each as one function of the block index.

  At grid point g the body loads the displacement block x0 : [4, 2, 40, 1920] (channel 1 the row displacement x, channel 0
  the column displacement y) and stores two blocks [4, 4, 40, 1920], each as four tiles [1, 4, 40, 1920], tile k for
  corner k = (0,0), (0,1), (1,0), (1,1). Tile k of the weight block holds the product of the two axis weights
  (lower: (⌊x⌋ + 1) − x, upper: x − ⌊x⌋); tile k of the destination block holds the flat destination of the corner,
  whose row is ⌊x⌋ + d + (40·g + r): the body adds the row offset 40·g it computes from the grid coordinate.
  Every operation of the body is pointwise except the layout ones (a slice and a cast that pick a channel, the casts
  that add the tile's unit axis, the broadcasts of the row, column and image-base vectors), so each tile read at an
  index is the scalar formula of the specification; the four tiles cover the block.
-/
import proofs.«122328_j53472342835318_2_alg».proof.Proof.FrameKernelIdeal
import proofs.«122328_j53472342835318_2_alg».proof.Proof.WarpSpec
import Idealize.ShloMosaic.Lib.Pipeline.Value
import Idealize.ShloMosaic.Lib.ValueIdx

set_option maxRecDepth 16384

noncomputable section

namespace Cert.KernelIdeal.Blocks

open Idealize.ShloMosaic Idealize.ShloMosaic.ValueIdx Idealize.ShloMosaic.View Cert.KernelIdeal Cert.KernelIdeal.Gen Cert.Warp

def rowWord (t r : Nat) : BitVec 32 := IntOp.addi (BitVec.ofNat 32 r) (Scalar.muli (BitVec.ofNat 32 t) 40#32)

theorem rowWord_eq (t r : Nat) : rowWord t r = BitVec.ofNat 32 (t * 40 + r) := by
  show BitVec.ofNat 32 r + BitVec.ofNat 32 t * BitVec.ofNat 32 40 = _
  rw [BitVec.ofNat_add, BitVec.ofNat_mul, BitVec.add_comm]

theorem y_at (x0 : Vec Ideal S4x2x40x1920 .f32) (n : Fin 4) (r : Fin 40) (w : Fin 1920) :
    k0_pay2 (F := Ideal) x0 (ix3 n r w) = x0 (ix4 n 0 r w) := by
  unfold k0_pay2
  refine (shapeCast_apply _ shapeCasts_S4x1x40x1920_S4x40x1920 (ix3 n r w) (ix4 n 0 r w) ?_).trans ?_
  · rw [Shape.rowMajor_val_four, Shape.rowMajor_val_three]
    show ((n.val * 1 + 0) * 40 + r.val) * 1920 + w.val = (n.val * 40 + r.val) * 1920 + w.val
    omega
  · exact extractStridedSlice_apply ![0, 0, 0, 0] x0 slices_S4x2x40x1920_o0_0_0_0_S4x1x40x1920 (ix4 n 0 r w) (ix4 n 0 r w)
      (fun a => match a with
        | ⟨0, _⟩ => by show n.val = 0 + n.val; omega
        | ⟨1, _⟩ => by show 0 = 0 + 0; rfl
        | ⟨2, _⟩ => by show r.val = 0 + r.val; omega
        | ⟨3, _⟩ => by show w.val = 0 + w.val; omega)

theorem x_at (x0 : Vec Ideal S4x2x40x1920 .f32) (n : Fin 4) (r : Fin 40) (w : Fin 1920) :
    k0_pay3 (F := Ideal) x0 (ix3 n r w) = x0 (ix4 n 1 r w) := by
  unfold k0_pay3
  refine (shapeCast_apply _ shapeCasts_S4x1x40x1920_S4x40x1920 (ix3 n r w) (ix4 n 0 r w) ?_).trans ?_
  · rw [Shape.rowMajor_val_four, Shape.rowMajor_val_three]
    show ((n.val * 1 + 0) * 40 + r.val) * 1920 + w.val = (n.val * 40 + r.val) * 1920 + w.val
    omega
  · exact extractStridedSlice_apply ![0, 1, 0, 0] x0 slices_S4x2x40x1920_o0_1_0_0_S4x1x40x1920 (ix4 n 0 r w) (ix4 n 1 r w)
      (fun a => match a with
        | ⟨0, _⟩ => by show n.val = 0 + n.val; omega
        | ⟨1, _⟩ => by show 1 = 1 + 0; rfl
        | ⟨2, _⟩ => by show r.val = 0 + r.val; omega
        | ⟨3, _⟩ => by show w.val = 0 + w.val; omega)

theorem wlo_x_at (x0 : Vec Ideal S4x2x40x1920 .f32) (i : S4x40x1920.Idx) :
    k0_pay10 (F := Ideal) x0 i = wAx false (k0_pay3 (F := Ideal) x0 i) := rfl

theorem cell_x_at (x0 : Vec Ideal S4x2x40x1920 .f32) (i : S4x40x1920.Idx) :
    k0_pay6 (F := Ideal) x0 i = cell (k0_pay3 (F := Ideal) x0 i) := rfl

theorem rows_at (g : grid0.Coords) (n : Fin 4) (r : Fin 40) (w : Fin 1920) :
    broadcastTo S4x40x1920 (k0_pay8 g) broadcasts_S1x40x1_S4x40x1920 (ix3 n r w) = rowWord (g 0).val r.val := by
  refine (broadcastTo_apply (k0_pay8 g) broadcasts_S1x40x1_S4x40x1920 (ix3 n r w) (ix3 0 r 0) (fun a => match a with
    | ⟨0, _⟩ => by show (0 : Nat) = if (1 : Nat) = 1 then 0 else n.val; rw [if_pos rfl]
    | ⟨1, _⟩ => by show r.val = if (40 : Nat) = 1 then 0 else r.val; rw [if_neg (by decide)]
    | ⟨2, _⟩ => by show (0 : Nat) = if (1 : Nat) = 1 then 0 else w.val; rw [if_pos rfl])).trans ?_
  unfold k0_pay8
  show IntOp.addi (iota .tc S1x40x1 32 [1] iota_S1x40x1_d1_w32 (ix3 0 r 0)) _ = _
  rw [iota_single_apply]
  rfl

theorem cols_at (n : Fin 4) (r : Fin 40) (w : Fin 1920) :
    broadcastTo S4x40x1920 (iota .tc S1x1x1920 32 [2] iota_S1x1x1920_d2_w32) broadcasts_S1x1x1920_S4x40x1920 (ix3 n r w)
      = BitVec.ofNat 32 w.val := by
  refine (broadcastTo_apply _ broadcasts_S1x1x1920_S4x40x1920 (ix3 n r w) (ix3 0 0 w) (fun a => match a with
    | ⟨0, _⟩ => by show (0 : Nat) = if (1 : Nat) = 1 then 0 else n.val; rw [if_pos rfl]
    | ⟨1, _⟩ => by show (0 : Nat) = if (1 : Nat) = 1 then 0 else r.val; rw [if_pos rfl]
    | ⟨2, _⟩ => by show w.val = if (1920 : Nat) = 1 then 0 else w.val; rw [if_neg (by decide)])).trans ?_
  rw [iota_single_apply]

theorem base_at (n : Fin 4) (r : Fin 40) (w : Fin 1920) :
    broadcastTo S4x40x1920 k0_pay9 broadcasts_S4x1x1_S4x40x1920 (ix3 n r w)
      = IntOp.muli (BitVec.ofNat 32 n.val) 2073600#32 := by
  refine (broadcastTo_apply _ broadcasts_S4x1x1_S4x40x1920 (ix3 n r w) (ix3 n 0 0) (fun a => match a with
    | ⟨0, _⟩ => by show n.val = if (4 : Nat) = 1 then 0 else n.val; rw [if_neg (by decide)]
    | ⟨1, _⟩ => by show (0 : Nat) = if (1 : Nat) = 1 then 0 else r.val; rw [if_pos rfl]
    | ⟨2, _⟩ => by show (0 : Nat) = if (1 : Nat) = 1 then 0 else w.val; rw [if_pos rfl])).trans ?_
  unfold k0_pay9
  show IntOp.muli (iota .tc S4x1x1 32 [0] iota_S4x1x1_d0_w32 (ix3 n 0 0)) _ = _
  rw [iota_single_apply]
  rfl

/-- The index of a tile with its leading unit axis dropped. -/
theorem drop_unit (z : Fin 1) (n : Fin 4) (r : Fin 40) (w : Fin 1920) :
    (fun a : Fin 3 => (ix4 z n r w : S1x4x40x1920.Idx) a.succ) = ix3 n r w :=
  funext fun a => match a with | ⟨0, _⟩ => rfl | ⟨1, _⟩ => rfl | ⟨2, _⟩ => rfl

/-- A weight tile: a pointwise product of two axis weights, stored with a leading unit axis, read at an index. -/
theorem tile_w (P : FVec Ideal S4x40x1920 .f32) (x0 : Vec Ideal S4x2x40x1920 .f32) (dx dy : Bool)
    (hP : ∀ i, P i = wAx dx (k0_pay3 (F := Ideal) x0 i) * wAx dy (k0_pay2 (F := Ideal) x0 i))
    (z : Fin 1) (n : Fin 4) (r : Fin 40) (w : Fin 1920) :
    shapeCast S1x4x40x1920 P shapeCasts_S4x40x1920_S1x4x40x1920 (ix4 z n r w)
      = wAx dx (x0 (ix4 n 1 r w)) * wAx dy (x0 (ix4 n 0 r w)) := by
  refine (shapeCast_addUnit_apply ![4, 40, 1920] P shapeCasts_S4x40x1920_S1x4x40x1920 (ix4 z n r w)).trans ?_
  rw [drop_unit, hP, x_at, y_at]

/-- A destination tile, likewise. -/
theorem tile_i (Q : IVec S4x40x1920 32) (g : grid0.Coords) (x0 : Vec Ideal S4x2x40x1920 .f32) (dx dy : Bool)
    (hQ : ∀ i, Q i = dest (broadcastTo S4x40x1920 k0_pay9 broadcasts_S4x1x1_S4x40x1920 i)
      (pos dx (k0_pay3 (F := Ideal) x0 i) (broadcastTo S4x40x1920 (k0_pay8 g) broadcasts_S1x40x1_S4x40x1920 i))
      (pos dy (k0_pay2 (F := Ideal) x0 i) (broadcastTo S4x40x1920 (iota .tc S1x1x1920 32 [2] iota_S1x1x1920_d2_w32) broadcasts_S1x1x1920_S4x40x1920 i)))
    (z : Fin 1) (n : Fin 4) (r : Fin 40) (w : Fin 1920) :
    shapeCast S1x4x40x1920 Q shapeCasts_S4x40x1920_S1x4x40x1920 (ix4 z n r w)
      = dest (IntOp.muli (BitVec.ofNat 32 n.val) 2073600#32) (pos dx (x0 (ix4 n 1 r w)) (rowWord (g 0).val r.val))
          (pos dy (x0 (ix4 n 0 r w)) (BitVec.ofNat 32 w.val)) := by
  refine (shapeCast_addUnit_apply ![4, 40, 1920] Q shapeCasts_S4x40x1920_S1x4x40x1920 (ix4 z n r w)).trans ?_
  rw [drop_unit, hQ, base_at, rows_at, cols_at, x_at, y_at]

/-! ## The four tiles of each output block, as pointwise formulas (each by unfolding the payloads) -/

theorem w0_pt (x0 : Vec Ideal S4x2x40x1920 .f32) (i : S4x40x1920.Idx) :
    mulf (k0_pay10 (F := Ideal) x0) (k0_pay11 (F := Ideal) x0) i
      = wAx false (k0_pay3 (F := Ideal) x0 i) * wAx false (k0_pay2 (F := Ideal) x0 i) := rfl
theorem w1_pt (x0 : Vec Ideal S4x2x40x1920 .f32) (i : S4x40x1920.Idx) :
    mulf (k0_pay18 (F := Ideal) (k0_pay3 x0) (k0_pay4 x0)) (k0_pay19 (F := Ideal) (k0_pay2 x0) (k0_pay5 x0)) i
      = wAx false (k0_pay3 (F := Ideal) x0 i) * wAx true (k0_pay2 (F := Ideal) x0 i) := rfl
theorem w2_pt (x0 : Vec Ideal S4x2x40x1920 .f32) (i : S4x40x1920.Idx) :
    k0_pay27 (F := Ideal) (k0_pay2 x0) (k0_pay3 x0) (k0_pay4 x0) (k0_pay5 x0) i
      = wAx true (k0_pay3 (F := Ideal) x0 i) * wAx false (k0_pay2 (F := Ideal) x0 i) := rfl
theorem w3_pt (x0 : Vec Ideal S4x2x40x1920 .f32) (i : S4x40x1920.Idx) :
    mulf (subf (k0_pay3 (F := Ideal) x0) (k0_pay4 x0)) (subf (k0_pay2 (F := Ideal) x0) (k0_pay5 x0)) i
      = wAx true (k0_pay3 (F := Ideal) x0 i) * wAx true (k0_pay2 (F := Ideal) x0 i) := rfl

theorem i0_pt (g : grid0.Coords) (x0 : Vec Ideal S4x2x40x1920 .f32) (i : S4x40x1920.Idx) :
    (select (k0_pay14 (F := Ideal) g x0) (addi (addi (broadcastTo S4x40x1920 k0_pay9 broadcasts_S4x1x1_S4x40x1920) (k0_pay15 (F := Ideal) g x0)) (k0_pay13 (F := Ideal) x0)) (broadcast S4x40x1920 8294400#32)) i
      = dest (broadcastTo S4x40x1920 k0_pay9 broadcasts_S4x1x1_S4x40x1920 i)
        (pos false (k0_pay3 (F := Ideal) x0 i) (broadcastTo S4x40x1920 (k0_pay8 g) broadcasts_S1x40x1_S4x40x1920 i))
        (pos false (k0_pay2 (F := Ideal) x0 i) (broadcastTo S4x40x1920 (iota .tc S1x1x1920 32 [2] iota_S1x1x1920_d2_w32) broadcasts_S1x1x1920_S4x40x1920 i)) := rfl
theorem i1_pt (g : grid0.Coords) (x0 : Vec Ideal S4x2x40x1920 .f32) (i : S4x40x1920.Idx) :
    (select (k0_pay22 (k0_pay6 (F := Ideal) x0) (k0_pay7 (F := Ideal) x0) (k0_pay8 g) (iota .tc S1x1x1920 32 [2] iota_S1x1x1920_d2_w32)) (k0_pay23 (k0_pay6 (F := Ideal) x0) (k0_pay7 (F := Ideal) x0) (k0_pay8 g) (iota .tc S1x1x1920 32 [2] iota_S1x1x1920_d2_w32) k0_pay9) (broadcast S4x40x1920 8294400#32)) i
      = dest (broadcastTo S4x40x1920 k0_pay9 broadcasts_S4x1x1_S4x40x1920 i)
        (pos false (k0_pay3 (F := Ideal) x0 i) (broadcastTo S4x40x1920 (k0_pay8 g) broadcasts_S1x40x1_S4x40x1920 i))
        (pos true (k0_pay2 (F := Ideal) x0 i) (broadcastTo S4x40x1920 (iota .tc S1x1x1920 32 [2] iota_S1x1x1920_d2_w32) broadcasts_S1x1x1920_S4x40x1920 i)) := rfl
theorem i2_pt (g : grid0.Coords) (x0 : Vec Ideal S4x2x40x1920 .f32) (i : S4x40x1920.Idx) :
    (k0_pay26 (k0_pay6 (F := Ideal) x0) (k0_pay7 (F := Ideal) x0) (k0_pay8 g) (iota .tc S1x1x1920 32 [2] iota_S1x1x1920_d2_w32) k0_pay9) i
      = dest (broadcastTo S4x40x1920 k0_pay9 broadcasts_S4x1x1_S4x40x1920 i)
        (pos true (k0_pay3 (F := Ideal) x0 i) (broadcastTo S4x40x1920 (k0_pay8 g) broadcasts_S1x40x1_S4x40x1920 i))
        (pos false (k0_pay2 (F := Ideal) x0 i) (broadcastTo S4x40x1920 (iota .tc S1x1x1920 32 [2] iota_S1x1x1920_d2_w32) broadcasts_S1x1x1920_S4x40x1920 i)) := rfl
theorem i3_pt (g : grid0.Coords) (x0 : Vec Ideal S4x2x40x1920 .f32) (i : S4x40x1920.Idx) :
    (k0_pay30 (k0_pay6 (F := Ideal) x0) (k0_pay7 (F := Ideal) x0) (k0_pay8 g) (iota .tc S1x1x1920 32 [2] iota_S1x1x1920_d2_w32) k0_pay9) i
      = dest (broadcastTo S4x40x1920 k0_pay9 broadcasts_S4x1x1_S4x40x1920 i)
        (pos true (k0_pay3 (F := Ideal) x0 i) (broadcastTo S4x40x1920 (k0_pay8 g) broadcasts_S1x40x1_S4x40x1920 i))
        (pos true (k0_pay2 (F := Ideal) x0 i) (broadcastTo S4x40x1920 (iota .tc S1x1x1920 32 [2] iota_S1x1x1920_d2_w32) broadcasts_S1x1x1920_S4x40x1920 i)) := rfl

/-! ## The two output blocks as one function of the block index each -/

/-- The weight block: entry (k, n, r, w) is corner k's weight for the displacement at (n, r, w) of the input block. -/
def GW (x0 : Vec Ideal S4x2x40x1920 .f32) : S4x4x40x1920.Idx → EReal := fun y =>
  wAx (cornerX (y 0)) (x0 (ix4 (y 1) 1 (y 2) (y 3))) * wAx (cornerY (y 0)) (x0 (ix4 (y 1) 0 (y 2) (y 3)))

/-- The destination block at grid point g: entry (k, n, r, w) is corner k's destination for the source pixel in image n,
    row 40·g + r, column w. -/
def GI (g : grid0.Coords) (x0 : Vec Ideal S4x2x40x1920 .f32) : S4x4x40x1920.Idx → BitVec 32 := fun y =>
  dest (IntOp.muli (BitVec.ofNat 32 (y 1).val) 2073600#32)
    (pos (cornerX (y 0)) (x0 (ix4 (y 1) 1 (y 2) (y 3))) (rowWord (g 0).val (y 2).val))
    (pos (cornerY (y 0)) (x0 (ix4 (y 1) 0 (y 2) (y 3))) (BitVec.ofNat 32 (y 3).val))

theorem hz4 : (![0, 0, 0, 0] : Fin 4 → Nat) = fun _ => 0 := funext fun a => by fin_cases a <;> rfl

/-- Tile 0 sits at leading coordinate 0 of the block. -/
theorem emb_tile0 (z : Fin 1) (n : Fin 4) (r : Fin 40) (w : Fin 1920) :
    GenP.r0_1.emb (ix4 z n r w : S1x4x40x1920.Idx) = (ix4 (0 : Fin 4) n r w : S4x4x40x1920.Idx) := by
  funext a; apply Fin.ext
  have hz : z.val = 0 := by have := z.isLt; omega
  match a with
  | ⟨0, _⟩ => show 0 + 1 * z.val = 0; omega
  | ⟨1, _⟩ => show 0 + 1 * n.val = n.val; omega
  | ⟨2, _⟩ => show 0 + 1 * r.val = r.val; omega
  | ⟨3, _⟩ => show 0 + 1 * w.val = w.val; omega

/-- Tile 1 sits at leading coordinate 1 of the block. -/
theorem emb_tile1 (z : Fin 1) (n : Fin 4) (r : Fin 40) (w : Fin 1920) :
    GenP.r0_2.emb (ix4 z n r w : S1x4x40x1920.Idx) = (ix4 (1 : Fin 4) n r w : S4x4x40x1920.Idx) := by
  funext a; apply Fin.ext
  have hz : z.val = 0 := by have := z.isLt; omega
  match a with
  | ⟨0, _⟩ => show 1 + 1 * z.val = 1; omega
  | ⟨1, _⟩ => show 0 + 1 * n.val = n.val; omega
  | ⟨2, _⟩ => show 0 + 1 * r.val = r.val; omega
  | ⟨3, _⟩ => show 0 + 1 * w.val = w.val; omega

/-- Tile 2 sits at leading coordinate 2 of the block. -/
theorem emb_tile2 (z : Fin 1) (n : Fin 4) (r : Fin 40) (w : Fin 1920) :
    GenP.r0_3.emb (ix4 z n r w : S1x4x40x1920.Idx) = (ix4 (2 : Fin 4) n r w : S4x4x40x1920.Idx) := by
  funext a; apply Fin.ext
  have hz : z.val = 0 := by have := z.isLt; omega
  match a with
  | ⟨0, _⟩ => show 2 + 1 * z.val = 2; omega
  | ⟨1, _⟩ => show 0 + 1 * n.val = n.val; omega
  | ⟨2, _⟩ => show 0 + 1 * r.val = r.val; omega
  | ⟨3, _⟩ => show 0 + 1 * w.val = w.val; omega

/-- Tile 3 sits at leading coordinate 3 of the block. -/
theorem emb_tile3 (z : Fin 1) (n : Fin 4) (r : Fin 40) (w : Fin 1920) :
    GenP.r0_4.emb (ix4 z n r w : S1x4x40x1920.Idx) = (ix4 (3 : Fin 4) n r w : S4x4x40x1920.Idx) := by
  funext a; apply Fin.ext
  have hz : z.val = 0 := by have := z.isLt; omega
  match a with
  | ⟨0, _⟩ => show 3 + 1 * z.val = 3; omega
  | ⟨1, _⟩ => show 0 + 1 * n.val = n.val; omega
  | ⟨2, _⟩ => show 0 + 1 * r.val = r.val; omega
  | ⟨3, _⟩ => show 0 + 1 * w.val = w.val; omega

theorem out1_eq (x0 : Vec Ideal S4x2x40x1920 .f32) (y : S4x4x40x1920.Idx) : GenP.out0_1 x0 y = GW x0 y := by
  unfold GenP.out0_1
  simp only [View.ld_unit_zero (S := S4x2x40x1920) hz4]
  refine View.canon_apply_of_pieces (Val := Elt Ideal) (GW x0) _ ?_ y (GenP.cover0_1 (F := Ideal) _ _ _ _ y)
  intro p hp
  simp only [List.mem_cons, List.mem_nil_iff, or_false] at hp
  rcases hp with rfl | rfl | rfl | rfl
  · intro x
    obtain ⟨z, n, r, w, rfl⟩ : ∃ (z : Fin 1) (n : Fin 4) (r : Fin 40) (w : Fin 1920), x = (ix4 z n r w : S1x4x40x1920.Idx) :=
      ⟨x 0, x 1, x 2, x 3, eq_ix4 x⟩
    show _ = GW x0 (GenP.r0_4.emb (ix4 z n r w : S1x4x40x1920.Idx))
    rw [emb_tile3]
    exact tile_w (mulf (subf (k0_pay3 (F := Ideal) x0) (k0_pay4 x0)) (subf (k0_pay2 (F := Ideal) x0) (k0_pay5 x0))) x0 true true (w3_pt x0) z n r w
  · intro x
    obtain ⟨z, n, r, w, rfl⟩ : ∃ (z : Fin 1) (n : Fin 4) (r : Fin 40) (w : Fin 1920), x = (ix4 z n r w : S1x4x40x1920.Idx) :=
      ⟨x 0, x 1, x 2, x 3, eq_ix4 x⟩
    show _ = GW x0 (GenP.r0_3.emb (ix4 z n r w : S1x4x40x1920.Idx))
    rw [emb_tile2]
    exact tile_w (k0_pay27 (F := Ideal) (k0_pay2 x0) (k0_pay3 x0) (k0_pay4 x0) (k0_pay5 x0)) x0 true false (w2_pt x0) z n r w
  · intro x
    obtain ⟨z, n, r, w, rfl⟩ : ∃ (z : Fin 1) (n : Fin 4) (r : Fin 40) (w : Fin 1920), x = (ix4 z n r w : S1x4x40x1920.Idx) :=
      ⟨x 0, x 1, x 2, x 3, eq_ix4 x⟩
    show _ = GW x0 (GenP.r0_2.emb (ix4 z n r w : S1x4x40x1920.Idx))
    rw [emb_tile1]
    exact tile_w (mulf (k0_pay18 (F := Ideal) (k0_pay3 x0) (k0_pay4 x0)) (k0_pay19 (F := Ideal) (k0_pay2 x0) (k0_pay5 x0))) x0 false true (w1_pt x0) z n r w
  · intro x
    obtain ⟨z, n, r, w, rfl⟩ : ∃ (z : Fin 1) (n : Fin 4) (r : Fin 40) (w : Fin 1920), x = (ix4 z n r w : S1x4x40x1920.Idx) :=
      ⟨x 0, x 1, x 2, x 3, eq_ix4 x⟩
    show _ = GW x0 (GenP.r0_1.emb (ix4 z n r w : S1x4x40x1920.Idx))
    rw [emb_tile0]
    exact tile_w (mulf (k0_pay10 (F := Ideal) x0) (k0_pay11 (F := Ideal) x0)) x0 false false (w0_pt x0) z n r w

theorem out2_eq (g : grid0.Coords) (x0 : Vec Ideal S4x2x40x1920 .f32) (y : S4x4x40x1920.Idx) : GenP.out0_2 g x0 y = GI g x0 y := by
  unfold GenP.out0_2
  simp only [View.ld_unit_zero (S := S4x2x40x1920) hz4]
  refine View.canon_apply_of_pieces (Val := Elt Ideal) (GI g x0) _ ?_ y (GenP.cover0_2 (F := Ideal) _ _ _ _ y)
  intro p hp
  simp only [List.mem_cons, List.mem_nil_iff, or_false] at hp
  rcases hp with rfl | rfl | rfl | rfl
  · intro x
    obtain ⟨z, n, r, w, rfl⟩ : ∃ (z : Fin 1) (n : Fin 4) (r : Fin 40) (w : Fin 1920), x = (ix4 z n r w : S1x4x40x1920.Idx) :=
      ⟨x 0, x 1, x 2, x 3, eq_ix4 x⟩
    show _ = GI g x0 (GenP.r0_4.emb (ix4 z n r w : S1x4x40x1920.Idx))
    rw [emb_tile3]
    exact tile_i (k0_pay30 (k0_pay6 (F := Ideal) x0) (k0_pay7 (F := Ideal) x0) (k0_pay8 g) (iota .tc S1x1x1920 32 [2] iota_S1x1x1920_d2_w32) k0_pay9) g x0 true true (i3_pt g x0) z n r w
  · intro x
    obtain ⟨z, n, r, w, rfl⟩ : ∃ (z : Fin 1) (n : Fin 4) (r : Fin 40) (w : Fin 1920), x = (ix4 z n r w : S1x4x40x1920.Idx) :=
      ⟨x 0, x 1, x 2, x 3, eq_ix4 x⟩
    show _ = GI g x0 (GenP.r0_3.emb (ix4 z n r w : S1x4x40x1920.Idx))
    rw [emb_tile2]
    exact tile_i (k0_pay26 (k0_pay6 (F := Ideal) x0) (k0_pay7 (F := Ideal) x0) (k0_pay8 g) (iota .tc S1x1x1920 32 [2] iota_S1x1x1920_d2_w32) k0_pay9) g x0 true false (i2_pt g x0) z n r w
  · intro x
    obtain ⟨z, n, r, w, rfl⟩ : ∃ (z : Fin 1) (n : Fin 4) (r : Fin 40) (w : Fin 1920), x = (ix4 z n r w : S1x4x40x1920.Idx) :=
      ⟨x 0, x 1, x 2, x 3, eq_ix4 x⟩
    show _ = GI g x0 (GenP.r0_2.emb (ix4 z n r w : S1x4x40x1920.Idx))
    rw [emb_tile1]
    exact tile_i (select (k0_pay22 (k0_pay6 (F := Ideal) x0) (k0_pay7 (F := Ideal) x0) (k0_pay8 g) (iota .tc S1x1x1920 32 [2] iota_S1x1x1920_d2_w32)) (k0_pay23 (k0_pay6 (F := Ideal) x0) (k0_pay7 (F := Ideal) x0) (k0_pay8 g) (iota .tc S1x1x1920 32 [2] iota_S1x1x1920_d2_w32) k0_pay9) (broadcast S4x40x1920 8294400#32)) g x0 false true (i1_pt g x0) z n r w
  · intro x
    obtain ⟨z, n, r, w, rfl⟩ : ∃ (z : Fin 1) (n : Fin 4) (r : Fin 40) (w : Fin 1920), x = (ix4 z n r w : S1x4x40x1920.Idx) :=
      ⟨x 0, x 1, x 2, x 3, eq_ix4 x⟩
    show _ = GI g x0 (GenP.r0_1.emb (ix4 z n r w : S1x4x40x1920.Idx))
    rw [emb_tile0]
    exact tile_i (select (k0_pay14 (F := Ideal) g x0) (addi (addi (broadcastTo S4x40x1920 k0_pay9 broadcasts_S4x1x1_S4x40x1920) (k0_pay15 (F := Ideal) g x0)) (k0_pay13 (F := Ideal) x0)) (broadcast S4x40x1920 8294400#32)) g x0 false false (i0_pt g x0) z n r w

end Cert.KernelIdeal.Blocks

end
-- ==== Proof.KernelArrays.lean ====
/-
  The two arrays the region leaves: the weights and the destinations of all four corners of every source pixel.

  Each of the 27 grid points writes back one block of each output array, and that block is the restriction of one
  whole-array function (the specification's weights / dests of the displacement field) to the rows the point owns;
  the points' blocks cover the arrays, so after the region each array IS that function.
-/
import proofs.«122328_j53472342835318_2_alg».proof.Proof.KernelBlocks

set_option maxRecDepth 16384

noncomputable section

namespace Cert.KernelIdeal.Blocks

open Idealize.ShloMosaic Idealize.ShloMosaic.ValueIdx Idealize.ShloMosaic.TcCoe Idealize.SL.Sem Cert.KernelIdeal Cert.KernelIdeal.Gen Cert.Warp
open Idealize.ShloMosaic.Pipeline (Dat)

/-! ## From blocks to the arrays

Grid point t stages rows 40·t … 40·t + 39 of every window: block index (0, 0, t, 0). So the input block at t is the
displacement field on those rows, each output block is the restriction of one whole-array function to those rows, and
the 27 points cover all 1080 rows. -/

variable (m : (ℓ : Loc nD τ sig) → Buf (Elt Ideal) ℓ)

/-- The displacement field the program was launched with. -/
abbrev floOf (c : Dev nD) : Flo := m ((c : Thread nD τ).loc main_arg1)
/-- The image the program was launched with. -/
abbrev imgOf (c : Dev nD) : Img := m ((c : Thread nD τ).loc main_arg0)

/-- The printed index maps, decided over the grid: every window's block at point t is (0, 0, t, 0), and the grid
    coordinate the body reads is t. -/
theorem idx_facts : ∀ t : Fin cfg0.N,
    (win0_0.index t (0 : Fin 4) = 0 ∧ win0_0.index t (1 : Fin 4) = 0 ∧ win0_0.index t (2 : Fin 4) = t.val ∧ win0_0.index t (3 : Fin 4) = 0)
    ∧ (win0_1.index t (0 : Fin 4) = 0 ∧ win0_1.index t (1 : Fin 4) = 0 ∧ win0_1.index t (2 : Fin 4) = t.val ∧ win0_1.index t (3 : Fin 4) = 0)
    ∧ (win0_2.index t (0 : Fin 4) = 0 ∧ win0_2.index t (1 : Fin 4) = 0 ∧ win0_2.index t (2 : Fin 4) = t.val ∧ win0_2.index t (3 : Fin 4) = 0)
    ∧ ((grid0.coords t) 0).val = t.val :=
  (by decide +kernel : ∀ t : Fin grid0.N, _)

/-- The input block at point t is the displacement field on rows 40·t … 40·t + 39. -/
theorem iblk_at (c : Dev nD) (t : Fin cfg0.N) (n : Fin 4) (ch : Fin 2) (r : Fin 40) (w : Fin 1920) :
    (GenP.iblk m c 0 t : Vec Ideal S4x2x40x1920 .f32) (ix4 n ch r w)
      = floOf m c (ix4 n ch ⟨t.val * 40 + r.val, by have ht : t.val < 27 := t.isLt; omega⟩ w) := by
  obtain ⟨⟨e0, e1, e2, e3⟩, -⟩ := idx_facts t
  show GenP.V m c main_arg1 (((cfg0.win 0).blk t).view.emb (ix4 n ch r w)) = _
  refine congrArg (m ((c : Thread nD τ).loc main_arg1)) (funext fun a => Fin.ext ?_)
  match a with
  | ⟨0, _⟩ => show win0_0.index t (0 : Fin 4) * 4 + 1 * n.val = n.val; omega
  | ⟨1, _⟩ => show win0_0.index t (1 : Fin 4) * 2 + 1 * ch.val = ch.val; omega
  | ⟨2, _⟩ => show win0_0.index t (2 : Fin 4) * 40 + 1 * r.val = t.val * 40 + r.val; omega
  | ⟨3, _⟩ => show win0_0.index t (3 : Fin 4) * 1920 + 1 * w.val = w.val; omega

/-- The weight block of an input block that is the field on rows 40·t …, at block index j, is the whole weight
    array at the array index i with the same coordinates, the row shifted by 40·t. -/
theorem GW_at (flo : Flo) (x0 : Vec Ideal S4x2x40x1920 .f32) (t : Nat) (ht : t < 27)
    (hx : ∀ (n : Fin 4) (ch : Fin 2) (r : Fin 40) (w : Fin 1920),
      x0 (ix4 n ch r w) = flo (ix4 n ch ⟨t * 40 + r.val, by omega⟩ w))
    (j : S4x4x40x1920.Idx) (i : S4x4x1080x1920.Idx)
    (h0 : (i 0).val = (j 0).val) (h1 : (i 1).val = (j 1).val) (h2 : (i 2).val = t * 40 + (j 2).val)
    (h3 : (i 3).val = (j 3).val) : GW x0 j = weights flo i := by
  obtain ⟨k, n, r, w, rfl⟩ : ∃ (k : Fin 4) (n : Fin 4) (r : Fin 40) (w : Fin 1920), j = (ix4 k n r w : S4x4x40x1920.Idx) :=
    ⟨j 0, j 1, j 2, j 3, eq_ix4 j⟩
  have hb : t * 40 + r.val < 1080 := by have hr : r.val < 40 := r.isLt; omega
  obtain rfl : i = (ix4 k n ⟨t * 40 + r.val, hb⟩ w : S4x4x1080x1920.Idx) := by
    funext a; apply Fin.ext
    match a with
    | ⟨0, _⟩ => exact h0
    | ⟨1, _⟩ => exact h1
    | ⟨2, _⟩ => exact h2
    | ⟨3, _⟩ => exact h3
  show wAx (cornerX k) (x0 (ix4 n 1 r w)) * wAx (cornerY k) (x0 (ix4 n 0 r w)) = _
  rw [hx, hx]
  rfl

/-- The same for the destination block at a grid point whose coordinate is t. -/
theorem GI_at (flo : Flo) (g : grid0.Coords) (x0 : Vec Ideal S4x2x40x1920 .f32) (t : Nat) (ht : t < 27) (hg : (g 0).val = t)
    (hx : ∀ (n : Fin 4) (ch : Fin 2) (r : Fin 40) (w : Fin 1920),
      x0 (ix4 n ch r w) = flo (ix4 n ch ⟨t * 40 + r.val, by omega⟩ w))
    (j : S4x4x40x1920.Idx) (i : S4x4x1080x1920.Idx)
    (h0 : (i 0).val = (j 0).val) (h1 : (i 1).val = (j 1).val) (h2 : (i 2).val = t * 40 + (j 2).val)
    (h3 : (i 3).val = (j 3).val) : GI g x0 j = dests flo i := by
  obtain ⟨k, n, r, w, rfl⟩ : ∃ (k : Fin 4) (n : Fin 4) (r : Fin 40) (w : Fin 1920), j = (ix4 k n r w : S4x4x40x1920.Idx) :=
    ⟨j 0, j 1, j 2, j 3, eq_ix4 j⟩
  have hb : t * 40 + r.val < 1080 := by have hr : r.val < 40 := r.isLt; omega
  obtain rfl : i = (ix4 k n ⟨t * 40 + r.val, hb⟩ w : S4x4x1080x1920.Idx) := by
    funext a; apply Fin.ext
    match a with
    | ⟨0, _⟩ => exact h0
    | ⟨1, _⟩ => exact h1
    | ⟨2, _⟩ => exact h2
    | ⟨3, _⟩ => exact h3
  show dest (IntOp.muli (BitVec.ofNat 32 n.val) 2073600#32)
      (pos (cornerX k) (x0 (ix4 n 1 r w)) (rowWord (g 0).val r.val))
      (pos (cornerY k) (x0 (ix4 n 0 r w)) (BitVec.ofNat 32 w.val)) = _
  rw [hx, hx, hg, rowWord_eq]
  rfl

/-- WHAT POINT t WRITES BACK to the weight array is block t of the whole weight array. -/
theorem flushed1_eq (c : Dev nD) (t : Fin cfg0.N) :
    (GenP.dats m 0 c).flushed 1 t = ((cfg0.win 1).blk t).view.read (Elt Ideal) (weights (floOf m c)) := by
  show (cfg0.win 1).cut (grid0.coords t) ((GenP.dats m 0 c).after 1 t) = _
  rw [GenP.after0_1]
  obtain ⟨-, ⟨e0, e1, e2, e3⟩, -, -⟩ := idx_facts t
  funext j
  show GenP.out0_1 (GenP.iblk m c 0 t) j = weights (floOf m c) (((cfg0.win 1).blk t).view.emb j)
  rw [out1_eq]
  have ht : t.val < 27 := t.isLt
  refine GW_at (floOf m c) (GenP.iblk m c 0 t) t.val ht (fun n ch r w => iblk_at m c t n ch r w) j
    (((cfg0.win 1).blk t).view.emb j) ?_ ?_ ?_ ?_
  · show win0_1.index t (0 : Fin 4) * 4 + 1 * (j 0).val = (j 0).val; omega
  · show win0_1.index t (1 : Fin 4) * 4 + 1 * (j 1).val = (j 1).val; omega
  · show win0_1.index t (2 : Fin 4) * 40 + 1 * (j 2).val = t.val * 40 + (j 2).val; omega
  · show win0_1.index t (3 : Fin 4) * 1920 + 1 * (j 3).val = (j 3).val; omega

/-- WHAT POINT t WRITES BACK to the destination array is block t of the whole destination array. -/
theorem flushed2_eq (c : Dev nD) (t : Fin cfg0.N) :
    (GenP.dats m 0 c).flushed 2 t = ((cfg0.win 2).blk t).view.read (Elt Ideal) (dests (floOf m c)) := by
  show (cfg0.win 2).cut (grid0.coords t) ((GenP.dats m 0 c).after 2 t) = _
  rw [GenP.after0_2]
  obtain ⟨-, -, ⟨e0, e1, e2, e3⟩, eg⟩ := idx_facts t
  funext j
  show GenP.out0_2 (grid0.coords t) (GenP.iblk m c 0 t) j = dests (floOf m c) (((cfg0.win 2).blk t).view.emb j)
  rw [out2_eq]
  have ht : t.val < 27 := t.isLt
  refine GI_at (floOf m c) (grid0.coords t) (GenP.iblk m c 0 t) t.val ht eg (fun n ch r w => iblk_at m c t n ch r w) j
    (((cfg0.win 2).blk t).view.emb j) ?_ ?_ ?_ ?_
  · show win0_2.index t (0 : Fin 4) * 4 + 1 * (j 0).val = (j 0).val; omega
  · show win0_2.index t (1 : Fin 4) * 4 + 1 * (j 1).val = (j 1).val; omega
  · show win0_2.index t (2 : Fin 4) * 40 + 1 * (j 2).val = t.val * 40 + (j 2).val; omega
  · show win0_2.index t (3 : Fin 4) * 1920 + 1 * (j 3).val = (j 3).val; omega

/-- An index of the weight array is in point t's block iff each coordinate is in the block's range on its axis. -/
theorem mem_blk1 (t : Fin cfg0.N) (i : S4x4x1080x1920.Idx) :
    i ∈ ((cfg0.win 1).blk t).view.set ↔ ∀ a : Fin 4, win0_1.index t a * S4x4x40x1920.size a ≤ (i a).val
      ∧ (i a).val < win0_1.index t a * S4x4x40x1920.size a + S4x4x40x1920.size a := by
  show i ∈ ((View.whole main_v0_0).slice (win0_1.rect t)).set ↔ _
  rw [View.set_slice_whole, Rect.mem_set_unit]
  exact Iff.rfl

theorem mem_blk2 (t : Fin cfg0.N) (i : S4x4x1080x1920.Idx) :
    i ∈ ((cfg0.win 2).blk t).view.set ↔ ∀ a : Fin 4, win0_2.index t a * S4x4x40x1920.size a ≤ (i a).val
      ∧ (i a).val < win0_2.index t a * S4x4x40x1920.size a + S4x4x40x1920.size a := by
  show i ∈ ((View.whole main_v0_1).slice (win0_2.rect t)).set ↔ _
  rw [View.set_slice_whole, Rect.mem_set_unit]
  exact Iff.rfl

/-- Row h lies in the block of point h / 40: the blocks cover the weight array, -/
theorem cover1 (i : S4x4x1080x1920.Idx) :
    ∃ t : Fin cfg0.N, (cfg0.win 1).flush t = true ∧ i ∈ ((cfg0.win 1).blk t).view.set := by
  have h0 : (i 0).val < 4 := (i 0).isLt
  have h1 : (i 1).val < 4 := (i 1).isLt
  have h2 : (i 2).val < 1080 := (i 2).isLt
  have h3 : (i 3).val < 1920 := (i 3).isLt
  refine ⟨⟨(i 2).val / 40, by show (i 2).val / 40 < 27; omega⟩, flush0_1 _, ?_⟩
  obtain ⟨-, ⟨e0, e1, e2, e3⟩, -, -⟩ := idx_facts ⟨(i 2).val / 40, by show (i 2).val / 40 < 27; omega⟩
  rw [mem_blk1]
  intro a
  match a with
  | ⟨0, _⟩ => show win0_1.index _ (0 : Fin 4) * 4 ≤ (i 0).val ∧ (i 0).val < win0_1.index _ (0 : Fin 4) * 4 + 4; rw [e0]; omega
  | ⟨1, _⟩ => show win0_1.index _ (1 : Fin 4) * 4 ≤ (i 1).val ∧ (i 1).val < win0_1.index _ (1 : Fin 4) * 4 + 4; rw [e1]; omega
  | ⟨2, _⟩ => show win0_1.index _ (2 : Fin 4) * 40 ≤ (i 2).val ∧ (i 2).val < win0_1.index _ (2 : Fin 4) * 40 + 40; rw [e2]; show (i 2).val / 40 * 40 ≤ (i 2).val ∧ (i 2).val < (i 2).val / 40 * 40 + 40; omega
  | ⟨3, _⟩ => show win0_1.index _ (3 : Fin 4) * 1920 ≤ (i 3).val ∧ (i 3).val < win0_1.index _ (3 : Fin 4) * 1920 + 1920; rw [e3]; omega

/-- and the destination array. -/
theorem cover2 (i : S4x4x1080x1920.Idx) :
    ∃ t : Fin cfg0.N, (cfg0.win 2).flush t = true ∧ i ∈ ((cfg0.win 2).blk t).view.set := by
  have h0 : (i 0).val < 4 := (i 0).isLt
  have h1 : (i 1).val < 4 := (i 1).isLt
  have h2 : (i 2).val < 1080 := (i 2).isLt
  have h3 : (i 3).val < 1920 := (i 3).isLt
  refine ⟨⟨(i 2).val / 40, by show (i 2).val / 40 < 27; omega⟩, flush0_2 _, ?_⟩
  obtain ⟨-, -, ⟨e0, e1, e2, e3⟩, -⟩ := idx_facts ⟨(i 2).val / 40, by show (i 2).val / 40 < 27; omega⟩
  rw [mem_blk2]
  intro a
  match a with
  | ⟨0, _⟩ => show win0_2.index _ (0 : Fin 4) * 4 ≤ (i 0).val ∧ (i 0).val < win0_2.index _ (0 : Fin 4) * 4 + 4; rw [e0]; omega
  | ⟨1, _⟩ => show win0_2.index _ (1 : Fin 4) * 4 ≤ (i 1).val ∧ (i 1).val < win0_2.index _ (1 : Fin 4) * 4 + 4; rw [e1]; omega
  | ⟨2, _⟩ => show win0_2.index _ (2 : Fin 4) * 40 ≤ (i 2).val ∧ (i 2).val < win0_2.index _ (2 : Fin 4) * 40 + 40; rw [e2]; show (i 2).val / 40 * 40 ≤ (i 2).val ∧ (i 2).val < (i 2).val / 40 * 40 + 40; omega
  | ⟨3, _⟩ => show win0_2.index _ (3 : Fin 4) * 1920 ≤ (i 3).val ∧ (i 3).val < win0_2.index _ (3 : Fin 4) * 1920 + 1920; rw [e3]; omega

/-- THE WEIGHT ARRAY after the region: every corner's weight of every source pixel. -/
theorem weights_final (c : Dev nD) : (GenP.dats m 0 c).arrAt 1 cfg0.N = weights (floOf m c) :=
  (GenP.dats m 0 c).arrAt_eq_of_cover 1 (weights (floOf m c)) (fun t _ => flushed1_eq m c t) cover1

/-- THE DESTINATION ARRAY after the region: every corner's destination of every source pixel. -/
theorem dests_final (c : Dev nD) : (GenP.dats m 0 c).arrAt 2 cfg0.N = dests (floOf m c) :=
  (GenP.dats m 0 c).arrAt_eq_of_cover 2 (dests (floOf m c)) (fun t _ => flushed2_eq m c t) cover2

end Cert.KernelIdeal.Blocks

end
-- ==== Proof.KernelTail.lean ====
/-
  The host operations after the region, as one function of the image and the two arrays the region wrote.

  The weights [4, 4, 1080, 1920] are flattened to [4, 8294400] (corner, flat source position), the image is put
  channels-last and flattened to [8294400, 3]; the update rows are weight[k, s] · img[s, c], stacked corner after
  corner to [33177600, 3]; the destinations are flattened the same way to [33177600], a negative one moved up by 8294400;
  ONE scatter-add of the stacked rows into zeros [8294400, 3]; the result is reshaped and put channels-first again.
  Read at row J of the stacked operands: the corner is J / 8294400 and the source position s = J % 8294400.
-/
import proofs.«122328_j53472342835318_2_alg».proof.Proof.KernelArrays
import Idealize.ShloMosaic.Lib.StableHlo.Run

set_option maxRecDepth 16384

noncomputable section

namespace Cert.KernelIdeal.Tail

open Idealize.ShloMosaic Idealize.ShloMosaic.ValueIdx Idealize.ShloMosaic.TcCoe Idealize.SL.Sem Idealize.ShloMosaic.StableHlo
open Cert.KernelIdeal Cert.KernelIdeal.Gen Cert.KernelIdeal.Blocks Cert.Warp

/-- The stacked destinations [33177600]. -/
def flatI (I : S4x4x1080x1920.Idx → BitVec 32) : IVec S33177600 32 :=
  shapeCast S33177600 (shapeCast S4x8294400 I shapeCasts_S4x4x1080x1920_S4x8294400) shapeCasts_S4x8294400_S33177600

/-- The scatter-index column [33177600, 1]: the stacked destinations, a negative one counted from the end. -/
def idxK (I : S4x4x1080x1920.Idx → BitVec 32) : IVec S33177600x1 32 :=
  broadcastInDim S33177600x1 ![0] bcast_S33177600_S33177600x1_0
    (select (cmpi .slt (flatI I) (broadcastInDim S33177600 ![] bcast_S_S33177600 (constantI S_ 32 0#32)))
      (addi (flatI I) (broadcastInDim S33177600 ![] bcast_S_S33177600 (constantI S_ 32 8294400#32))) (flatI I))

/-- The stacked update rows [33177600, 3]: weight · image. -/
def updK (img : Img) (W : S4x4x1080x1920.Idx → EReal) : S33177600x3.Idx → EReal :=
  shapeCast S33177600x3
    (mulf (F := Ideal) (φ := .f32)
      (broadcastInDim S4x8294400x3 ![0, 1, 2] bcast_S4x8294400x1_S4x8294400x3_0_1_2
        (broadcastInDim S4x8294400x1 ![0, 1] bcast_S4x8294400_S4x8294400x1_0_1
          (shapeCast S4x8294400 W shapeCasts_S4x4x1080x1920_S4x8294400)))
      (broadcastInDim S4x8294400x3 ![0, 1, 2] bcast_S1x8294400x3_S4x8294400x3_0_1_2
        (broadcastInDim S1x8294400x3 ![1, 2] bcast_S8294400x3_S1x8294400x3_1_2
          (shapeCast S8294400x3 (transpose S4x1080x1920x3 [0, 2, 3, 1] img transposes_S4x3x1080x1920_S4x1080x1920x3_0_2_3_1)
            shapeCasts_S4x1080x1920x3_S8294400x3))))
    shapeCasts_S4x8294400x3_S33177600x3

/-- The accumulator the scatter starts from: zeros [8294400, 3]. -/
def zerosK : S8294400x3.Idx → EReal := broadcastInDim S8294400x3 ![] bcast_S_S8294400x3 (constant (F := Ideal) S_ .f32 0#32)

/-- The one scatter-add. -/
def accK (img : Img) (W : S4x4x1080x1920.Idx → EReal) (I : S4x4x1080x1920.Idx → BitVec 32) : S8294400x3.Idx → EReal :=
  Host.scatterAdd (F := Ideal) (φ := .f32) scatter_S8294400x3_S33177600x1_S33177600x3_1_0_0_1 zerosK (idxK I) (updK img W)

/-- Back to [4, 3, 1080, 1920]. -/
def outOf (acc : S8294400x3.Idx → EReal) : S4x3x1080x1920.Idx → EReal :=
  transpose S4x3x1080x1920 [0, 3, 1, 2] (shapeCast S4x1080x1920x3 acc shapeCasts_S8294400x3_S4x1080x1920x3)
    transposes_S4x1080x1920x3_S4x3x1080x1920_0_3_1_2

/-- The corner of row J of the stacked operands. -/
def kOf (J : Nat) : Fin 4 := ⟨J / 8294400 % 4, Nat.mod_lt _ (by decide)⟩

/-- The stacked destinations at row J: the destination array at (corner, the source pixel at J % 8294400). -/
theorem flatI_at (I : S4x4x1080x1920.Idx → BitVec 32) (J : Fin 33177600) :
    flatI I (ix1 J) = I (ix4 (kOf J.val) (cN (J.val % 8294400)) (cH (J.val % 8294400)) (cW (J.val % 8294400))) := by
  have hJ : J.val < 33177600 := J.isLt
  unfold flatI
  refine (shapeCast_apply _ shapeCasts_S4x8294400_S33177600 (ix1 J)
    (ix2 (⟨J.val / 8294400, by omega⟩ : Fin 4) (⟨J.val % 8294400, by omega⟩ : Fin 8294400)) ?_).trans ?_
  · rw [Shape.rowMajor_val_two, Shape.rowMajor_val_one]
    show J.val / 8294400 * 8294400 + J.val % 8294400 = J.val
    omega
  · refine (shapeCast_apply I shapeCasts_S4x4x1080x1920_S4x8294400 _
      (ix4 (kOf J.val) (cN (J.val % 8294400)) (cH (J.val % 8294400)) (cW (J.val % 8294400))) ?_)
    rw [Shape.rowMajor_val_four, Shape.rowMajor_val_two]
    show (((J.val / 8294400 % 4) * 4 + (J.val % 8294400) / 2073600 % 4) * 1080 + (J.val % 8294400) / 1920 % 1080) * 1920
        + (J.val % 8294400) % 1920 = J.val / 8294400 * 8294400 + J.val % 8294400
    omega

/-- The scatter index at row J. -/
theorem idxK_at (I : S4x4x1080x1920.Idx → BitVec 32) (J : S33177600x1.Idx) :
    idxK I J = normIdx (I (ix4 (kOf (J 0).val) (cN ((J 0).val % 8294400)) (cH ((J 0).val % 8294400)) (cW ((J 0).val % 8294400)))) := by
  obtain ⟨j, z, rfl⟩ : ∃ (j : Fin 33177600) (z : Fin 1), J = (ix2 j z : S33177600x1.Idx) := ⟨J 0, J 1, eq_ix2 J⟩
  unfold idxK
  refine (broadcastInDim_apply ![0] bcast_S33177600_S33177600x1_0 _ (ix2 j z) (ix1 j) (fun a => match a with
    | ⟨0, _⟩ => by show j.val = if (33177600 : Nat) = 1 then 0 else j.val; rw [if_neg (by decide)])).trans ?_
  show normIdx (flatI I (ix1 j)) = _
  rw [flatI_at]

/-- The update at row J, channel c: the weight of (corner, source pixel) times the image's channel c at the source pixel. -/
theorem updK_at (img : Img) (W : S4x4x1080x1920.Idx → EReal) (J : S33177600x3.Idx) :
    updK img W J = W (ix4 (kOf (J 0).val) (cN ((J 0).val % 8294400)) (cH ((J 0).val % 8294400)) (cW ((J 0).val % 8294400)))
      * imgAt img ((J 0).val % 8294400) ⟨(J 1).val, idx2_lt1 J⟩ := by
  obtain ⟨j, c, rfl⟩ : ∃ (j : Fin 33177600) (c : Fin 3), J = (ix2 j c : S33177600x3.Idx) := ⟨J 0, J 1, eq_ix2 J⟩
  have hj : j.val < 33177600 := j.isLt
  have hc : c.val < 3 := c.isLt
  unfold updK
  refine (shapeCast_apply _ shapeCasts_S4x8294400x3_S33177600x3 (ix2 j c)
    (ix3 (⟨j.val / 8294400, by omega⟩ : Fin 4) (⟨j.val % 8294400, by omega⟩ : Fin 8294400) c) ?_).trans ?_
  · rw [Shape.rowMajor_val_three, Shape.rowMajor_val_two]
    show (j.val / 8294400 * 8294400 + j.val % 8294400) * 3 + c.val = j.val * 3 + c.val
    omega
  · show _ * _ = _ * _
    congr 1
    · refine (broadcastInDim_apply ![0, 1, 2] bcast_S4x8294400x1_S4x8294400x3_0_1_2 _ _
        (ix3 (⟨j.val / 8294400, by omega⟩ : Fin 4) (⟨j.val % 8294400, by omega⟩ : Fin 8294400) (0 : Fin 1)) (fun a => match a with
        | ⟨0, _⟩ => by show j.val / 8294400 = if (4 : Nat) = 1 then 0 else j.val / 8294400; rw [if_neg (by decide)]
        | ⟨1, _⟩ => by show j.val % 8294400 = if (8294400 : Nat) = 1 then 0 else j.val % 8294400; rw [if_neg (by decide)]
        | ⟨2, _⟩ => by show (0 : Nat) = if (1 : Nat) = 1 then 0 else c.val; rw [if_pos rfl])).trans ?_
      refine (broadcastInDim_apply ![0, 1] bcast_S4x8294400_S4x8294400x1_0_1 _ _
        (ix2 (⟨j.val / 8294400, by omega⟩ : Fin 4) (⟨j.val % 8294400, by omega⟩ : Fin 8294400)) (fun a => match a with
        | ⟨0, _⟩ => by show j.val / 8294400 = if (4 : Nat) = 1 then 0 else j.val / 8294400; rw [if_neg (by decide)]
        | ⟨1, _⟩ => by show j.val % 8294400 = if (8294400 : Nat) = 1 then 0 else j.val % 8294400; rw [if_neg (by decide)])).trans ?_
      refine (shapeCast_apply W shapeCasts_S4x4x1080x1920_S4x8294400 _
        (ix4 (kOf j.val) (cN (j.val % 8294400)) (cH (j.val % 8294400)) (cW (j.val % 8294400))) ?_)
      rw [Shape.rowMajor_val_four, Shape.rowMajor_val_two]
      show (((j.val / 8294400 % 4) * 4 + (j.val % 8294400) / 2073600 % 4) * 1080 + (j.val % 8294400) / 1920 % 1080) * 1920
          + (j.val % 8294400) % 1920 = j.val / 8294400 * 8294400 + j.val % 8294400
      omega
    · refine (broadcastInDim_apply ![0, 1, 2] bcast_S1x8294400x3_S4x8294400x3_0_1_2 _ _
        (ix3 (0 : Fin 1) (⟨j.val % 8294400, by omega⟩ : Fin 8294400) c) (fun a => match a with
        | ⟨0, _⟩ => by show (0 : Nat) = if (1 : Nat) = 1 then 0 else j.val / 8294400; rw [if_pos rfl]
        | ⟨1, _⟩ => by show j.val % 8294400 = if (8294400 : Nat) = 1 then 0 else j.val % 8294400; rw [if_neg (by decide)]
        | ⟨2, _⟩ => by show c.val = if (3 : Nat) = 1 then 0 else c.val; rw [if_neg (by decide)])).trans ?_
      refine (broadcastInDim_apply ![1, 2] bcast_S8294400x3_S1x8294400x3_1_2 _ _
        (ix2 (⟨j.val % 8294400, by omega⟩ : Fin 8294400) c) (fun a => match a with
        | ⟨0, _⟩ => by show j.val % 8294400 = if (8294400 : Nat) = 1 then 0 else j.val % 8294400; rw [if_neg (by decide)]
        | ⟨1, _⟩ => by show c.val = if (3 : Nat) = 1 then 0 else c.val; rw [if_neg (by decide)])).trans ?_
      refine (shapeCast_apply _ shapeCasts_S4x1080x1920x3_S8294400x3 _
        (ix4 (cN (j.val % 8294400)) (cH (j.val % 8294400)) (cW (j.val % 8294400)) c) ?_).trans ?_
      · rw [Shape.rowMajor_val_four, Shape.rowMajor_val_two]
        show ((((j.val % 8294400) / 2073600 % 4) * 1080 + (j.val % 8294400) / 1920 % 1080) * 1920 + (j.val % 8294400) % 1920) * 3
            + c.val = (j.val % 8294400) * 3 + c.val
        omega
      · exact transpose_apply [0, 2, 3, 1] img transposes_S4x3x1080x1920_S4x1080x1920x3_0_2_3_1 _
          (ix4 (cN (j.val % 8294400)) c (cH (j.val % 8294400)) (cW (j.val % 8294400))) (fun b => match b with
          | ⟨0, _⟩ => rfl
          | ⟨1, _⟩ => rfl
          | ⟨2, _⟩ => rfl
          | ⟨3, _⟩ => rfl)

/-! ## What the frame run leaves in the result buffer -/

variable (m : (ℓ : Loc nD τ sig) → Buf (Elt Ideal) ℓ)

set_option maxHeartbeats 2000000 in
/-- The result after the host operations that follow the region: the tail of the image and the region's two arrays. -/
theorem result_eq (c : Dev nD) :
    Pipeline.afterTail₀ cfgs (GenP.dats m) 0 (GenP.V0 m) [hostOps1] c main_v21
      = outOf (accK (imgOf m c) (weights (floOf m c)) (dests (floOf m c))) := by
  have e1 : Pipeline.withArrays (cfgs 0).spec c (GenP.V0 m c) (fun w => (GenP.dats m 0 c).arrAt w (cfgs 0).N)
      (Proc.devRef .tc main_v0_0) = weights (floOf m c) :=
    (Pipeline.withArrays_arr spec0 launch0.win.arr_inj c _ _ 1).trans (weights_final m c)
  have e2 : Pipeline.withArrays (cfgs 0).spec c (GenP.V0 m c) (fun w => (GenP.dats m 0 c).arrAt w (cfgs 0).N)
      (Proc.devRef .tc main_v0_1) = dests (floOf m c) :=
    (Pipeline.withArrays_arr spec0 launch0.win.arr_inj c _ _ 2).trans (dests_final m c)
  have e0 : Pipeline.withArrays (cfgs 0).spec c (GenP.V0 m c) (fun w => (GenP.dats m 0 c).arrAt w (cfgs 0).N)
      (Proc.devRef .tc main_arg0) = imgOf m c :=
    (Pipeline.withArrays_of_ne _ c (GenP.V0 m c) _ main_arg0 (by exact (by decide : ∀ w, Pipeline.arrRef spec0 w ≠ main_arg0))).trans
      (GenP.V_main_arg0 m c)
  unfold Pipeline.afterTail₀
  simp only [hostOps1, List.flatten_cons, List.flatten_nil, List.append_nil, List.cons_append, List.nil_append]
  after_results
  rw [e0, e1, e2]
  rfl

end Cert.KernelIdeal.Tail

end
-- ==== Proof.RefOperands.lean ====
/-
  The reference program's four scatters, read at one row of their operands.

  The reference visits the four corners (0,0), (0,1), (1,0), (1,1) in turn. For each it forms, over the source
  pixels (n, h, w), a plane of destinations and a plane of weights, flattens both to the 8294400 = 4·1080·1920
  flat positions s = (n·1080 + h)·1920 + w, and scatter-adds the rows img_v[s, ·] · weight[s] at the (normalised)
  destinations. This file reads the scatter-index operand and the update operand of each of the four scatters at
  one index and identifies them with the scalar formulas of the specification: the index at row s is
  idxAt flo dx dy s, and the update at (s, c) is imgAt img s c * wtAt flo dx dy s.

  The planes are read at a source pixel (n, h, w) first. Every elementwise stage reads through by its own equation;
  the only arithmetic is in the layout stages: a slice followed by a reshape reads flo at (n, 1, h, w) or
  (n, 0, h, w), because the flat position (n·1080 + h)·1920 + w splits back into n, h, w; the reshape to flat
  positions reads a plane at (s / 2073600, s / 1920 % 1080, s % 1920); and the channels-last reshape of the image
  reads img at (s / 2073600, c, s / 1920 % 1080, s % 1920), because the flat position of (s, c) is 3·s + c.
-/
import proofs.«122328_j53472342835318_2_alg».proof.Proof.Gen.ReferenceIdeal.Read
import proofs.«122328_j53472342835318_2_alg».proof.Proof.WarpSpec

noncomputable section

namespace Cert.ReferenceIdeal.RefOperands

open Cert.ReferenceIdeal Cert.ReferenceIdeal.Read Idealize.ShloMosaic Idealize.ShloMosaic.ValueIdx
open Cert.Warp hiding Id

/-! ## The displacement planes at a source pixel -/

/-- Slicing channel 1 and dropping the unit axis reads flo at (n, 1, h, w). -/
theorem xIdx (n : Fin 4) (h : Fin 1080) (w : Fin 1920) :
    idx_main_v2 (idx_main_v3 (ix3 n h w)) = (ix4 n 1 h w : S4x2x1080x1920.Idx) := by
  funext a
  have hn := n.isLt
  have hh := h.isLt
  have hw := w.isLt
  match a with
  | ⟨0, _⟩ => exact Fin.ext (by show ((n.val * 1080 + h.val) * 1920 + w.val) / 2073600 = n.val; omega)
  | ⟨1, _⟩ => exact Fin.ext rfl
  | ⟨2, _⟩ => exact Fin.ext (by show ((n.val * 1080 + h.val) * 1920 + w.val) / 1920 % 1080 = h.val; omega)
  | ⟨3, _⟩ => exact Fin.ext (by show ((n.val * 1080 + h.val) * 1920 + w.val) % 1920 = w.val; omega)

/-- Slicing channel 0 and dropping the unit axis reads flo at (n, 0, h, w). -/
theorem yIdx (n : Fin 4) (h : Fin 1080) (w : Fin 1920) :
    idx_main_v0 (idx_main_v1 (ix3 n h w)) = (ix4 n 0 h w : S4x2x1080x1920.Idx) := by
  funext a
  have hn := n.isLt
  have hh := h.isLt
  have hw := w.isLt
  match a with
  | ⟨0, _⟩ => exact Fin.ext (by show ((n.val * 1080 + h.val) * 1920 + w.val) / 2073600 = n.val; omega)
  | ⟨1, _⟩ => exact Fin.ext rfl
  | ⟨2, _⟩ => exact Fin.ext (by show ((n.val * 1080 + h.val) * 1920 + w.val) / 1920 % 1080 = h.val; omega)
  | ⟨3, _⟩ => exact Fin.ext (by show ((n.val * 1080 + h.val) * 1920 + w.val) % 1920 = w.val; omega)

/-- The row displacement x of source pixel (n, h, w). -/
theorem x_at (flo : Flo) (n : Fin 4) (h : Fin 1080) (w : Fin 1920) :
    val_main_v3 (F := Ideal) flo (ix3 n h w) = flo (ix4 n 1 h w) := by
  rw [val_main_v3_apply, val_main_v2_apply]
  exact congrArg flo (xIdx n h w)

/-- The column displacement y of source pixel (n, h, w). -/
theorem y_at (flo : Flo) (n : Fin 4) (h : Fin 1080) (w : Fin 1920) :
    val_main_v1 (F := Ideal) flo (ix3 n h w) = flo (ix4 n 0 h w) := by
  rw [val_main_v1_apply, val_main_v0_apply]
  exact congrArg flo (yIdx n h w)

/-! ## A flat position read back as a source pixel -/

/-- Flat position s is pixel (s / 2073600, s / 1920 % 1080, s % 1920); below 8294400 the first is already below 4. -/
theorem flat_eq (i : S8294400.Idx) :
    idx_main_v50 i = ix3 (cN (i 0).val) (cH (i 0).val) (cW (i 0).val) := by
  funext a
  have hi : (i 0).val < 8294400 := (i 0).isLt
  match a with
  | ⟨0, _⟩ => exact Fin.ext (by show (i 0).val / 2073600 = (i 0).val / 2073600 % 4; omega)
  | ⟨1, _⟩ => exact Fin.ext rfl
  | ⟨2, _⟩ => exact Fin.ext rfl

theorem flat_v52 (i : S8294400.Idx) : idx_main_v52 i = ix3 (cN (i 0).val) (cH (i 0).val) (cW (i 0).val) := flat_eq i
theorem flat_v92 (i : S8294400.Idx) : idx_main_v92 i = ix3 (cN (i 0).val) (cH (i 0).val) (cW (i 0).val) := flat_eq i
theorem flat_v94 (i : S8294400.Idx) : idx_main_v94 i = ix3 (cN (i 0).val) (cH (i 0).val) (cW (i 0).val) := flat_eq i
theorem flat_v134 (i : S8294400.Idx) : idx_main_v134 i = ix3 (cN (i 0).val) (cH (i 0).val) (cW (i 0).val) := flat_eq i
theorem flat_v136 (i : S8294400.Idx) : idx_main_v136 i = ix3 (cN (i 0).val) (cH (i 0).val) (cW (i 0).val) := flat_eq i
theorem flat_v174 (i : S8294400.Idx) : idx_main_v174 i = ix3 (cN (i 0).val) (cH (i 0).val) (cW (i 0).val) := flat_eq i
theorem flat_v176 (i : S8294400.Idx) : idx_main_v176 i = ix3 (cN (i 0).val) (cH (i 0).val) (cW (i 0).val) := flat_eq i
theorem flat_v50 (i : S8294400.Idx) : idx_main_v50 i = ix3 (cN (i 0).val) (cH (i 0).val) (cW (i 0).val) := flat_eq i

/-! ## The image, channels last, at a flat position and a channel -/

/-- Row s, channel c of the flattened channels-last image is img at (s / 2073600, c, s / 1920 % 1080, s % 1920):
    the flat position of (s, c) among the 4·1080·1920·3 entries is 3·s + c. -/
theorem img_at (img : Img) (j : S8294400x3.Idx) :
    val_main_v17 (F := Ideal) img j = imgAt img (j 0).val ⟨(j 1).val, idx2_lt1 j⟩ := by
  rw [val_main_v17_apply, val_main_v16_apply]
  unfold imgAt
  refine congrArg img ?_
  funext a
  have h0 : (j 0).val < 8294400 := idx2_lt0 j
  have h1 : (j 1).val < 3 := idx2_lt1 j
  match a with
  | ⟨0, _⟩ => exact Fin.ext (by show ((j 0).val * 3 + (j 1).val) / 6220800 = (j 0).val / 2073600 % 4; omega)
  | ⟨1, _⟩ => exact Fin.ext (by show ((j 0).val * 3 + (j 1).val) % 3 = (j 1).val; omega)
  | ⟨2, _⟩ => exact Fin.ext (by show ((j 0).val * 3 + (j 1).val) / 5760 % 1080 = (j 0).val / 1920 % 1080; omega)
  | ⟨3, _⟩ => exact Fin.ext (by show ((j 0).val * 3 + (j 1).val) / 3 % 1920 = (j 0).val % 1920; omega)

/-! ## Corner (0, 0) -/

/-- The destination plane of corner (0, 0) at source pixel (n, h, w). -/
theorem dest00 (flo : Flo) (n : Fin 4) (h : Fin 1080) (w : Fin 1920) :
    val_main_v49 (F := Ideal) flo (ix3 n h w) = Cert.Warp.Id flo false false n h w := by
  simp only [
    val_main_v49_apply, val_main_v43_apply, val_main_v40_apply, val_main_v37_apply, val_main_v34_apply,
    val_main_v28_apply, val_main_v26_apply, val_main_v6_apply, val_main_v4_apply, val_main_v25_apply,
    val_main_c_2_apply, val_main_v27_apply, val_main_v9_apply, val_main_v8_apply, val_main_v33_apply,
    val_main_c_4_apply, val_main_v36_apply, val_main_v35_apply, val_main_c_5_apply, val_main_v39_apply,
    val_main_v32_apply, val_main_v30_apply, val_main_v7_apply, val_main_v5_apply, val_main_v29_apply,
    val_main_c_3_apply, val_main_v31_apply, val_main_v11_apply, val_main_v10_apply, val_main_v38_apply,
    val_main_c_6_apply, val_main_v42_apply, val_main_v41_apply, val_main_c_7_apply, val_main_v48_apply,
    val_main_v47_apply, val_main_v46_apply, val_main_v15_apply, val_main_v14_apply, val_main_v12_apply,
    val_main_v13_apply, val_main_c_apply, val_main_v45_apply, val_main_v44_apply, val_main_c_8_apply,
    val_main_call0_v1_apply, val_main_call0_v0_apply, val_main_c_9_apply, x_at, y_at]
  rfl

/-- The weight plane of corner (0, 0) at source pixel (n, h, w). -/
theorem wt00 (flo : Flo) (n : Fin 4) (h : Fin 1080) (w : Fin 1920) :
    val_main_v51 (F := Ideal) flo (ix3 n h w) = Wt flo false false n h w := by
  simp only [
    val_main_v51_apply, val_main_v21_apply, val_main_v20_apply, val_main_v4_apply, val_main_v19_apply,
    val_main_cst_0_apply, val_main_v24_apply, val_main_v23_apply, val_main_v5_apply, val_main_v22_apply,
    val_main_cst_1_apply, x_at, y_at]
  rfl

/-- The flattened destination plane at flat position s. -/
theorem destFlat00 (flo : Flo) (i : S8294400.Idx) :
    val_main_v50 (F := Ideal) flo i = Cert.Warp.Id flo false false (cN (i 0).val) (cH (i 0).val) (cW (i 0).val) := by
  rw [val_main_v50_apply, flat_v50 i, dest00]

/-- The flattened weight plane at flat position s. -/
theorem wtFlat00 (flo : Flo) (i : S8294400.Idx) :
    val_main_v52 (F := Ideal) flo i = Wt flo false false (cN (i 0).val) (cH (i 0).val) (cW (i 0).val) := by
  rw [val_main_v52_apply, flat_v52 i, wt00]

/-- The scatter index of corner (0, 0) at row s: the destination, a negative one moved up by 8294400. -/
theorem scatterIdx00 (flo : Flo) (j : S8294400x1.Idx) :
    val_main_v61 (F := Ideal) flo j = idxAt flo false false (j 0).val := by
  simp only [
    val_main_v61_apply, val_main_v60_apply, val_main_v57_apply, val_main_v56_apply, val_main_c_10_apply,
    val_main_v59_apply, val_main_v58_apply, val_main_c_11_apply, destFlat00]
  rfl

/-- The update of corner (0, 0) at (s, c): the image entry times the corner's weight. -/
theorem scatterUpd00 (img : Img) (flo : Flo) (j : S8294400x3.Idx) :
    val_main_v55 (F := Ideal) img flo j
      = imgAt img (j 0).val ⟨(j 1).val, idx2_lt1 j⟩ * wtAt flo false false (j 0).val := by
  simp only [val_main_v55_apply, val_main_v54_apply, val_main_v53_apply, wtFlat00, img_at]
  rfl

/-! ## Corner (0, 1) -/

/-- The destination plane of corner (0, 1) at source pixel (n, h, w). -/
theorem dest01 (flo : Flo) (n : Fin 4) (h : Fin 1080) (w : Fin 1920) :
    val_main_v91 (F := Ideal) flo (ix3 n h w) = Cert.Warp.Id flo false true n h w := by
  simp only [
    val_main_v91_apply, val_main_v85_apply, val_main_v82_apply, val_main_v79_apply, val_main_v76_apply,
    val_main_v70_apply, val_main_v68_apply, val_main_v6_apply, val_main_v4_apply, val_main_v67_apply,
    val_main_c_13_apply, val_main_v69_apply, val_main_v9_apply, val_main_v8_apply, val_main_v75_apply,
    val_main_c_15_apply, val_main_v78_apply, val_main_v77_apply, val_main_c_16_apply, val_main_v81_apply,
    val_main_v74_apply, val_main_v72_apply, val_main_v7_apply, val_main_v5_apply, val_main_v71_apply,
    val_main_c_14_apply, val_main_v73_apply, val_main_v11_apply, val_main_v10_apply, val_main_v80_apply,
    val_main_c_17_apply, val_main_v84_apply, val_main_v83_apply, val_main_c_18_apply, val_main_v90_apply,
    val_main_v89_apply, val_main_v88_apply, val_main_v15_apply, val_main_v14_apply, val_main_v12_apply,
    val_main_v13_apply, val_main_c_apply, val_main_v87_apply, val_main_v86_apply, val_main_c_19_apply,
    val_main_call1_v1_apply, val_main_call1_v0_apply, val_main_c_20_apply, x_at, y_at]
  rfl

/-- The weight plane of corner (0, 1) at source pixel (n, h, w). -/
theorem wt01 (flo : Flo) (n : Fin 4) (h : Fin 1080) (w : Fin 1920) :
    val_main_v93 (F := Ideal) flo (ix3 n h w) = Wt flo false true n h w := by
  simp only [
    val_main_v93_apply, val_main_v65_apply, val_main_v64_apply, val_main_v4_apply, val_main_v63_apply,
    val_main_cst_12_apply, val_main_v66_apply, val_main_v5_apply, x_at, y_at]
  rfl

/-- The flattened destination plane at flat position s. -/
theorem destFlat01 (flo : Flo) (i : S8294400.Idx) :
    val_main_v92 (F := Ideal) flo i = Cert.Warp.Id flo false true (cN (i 0).val) (cH (i 0).val) (cW (i 0).val) := by
  rw [val_main_v92_apply, flat_v92 i, dest01]

/-- The flattened weight plane at flat position s. -/
theorem wtFlat01 (flo : Flo) (i : S8294400.Idx) :
    val_main_v94 (F := Ideal) flo i = Wt flo false true (cN (i 0).val) (cH (i 0).val) (cW (i 0).val) := by
  rw [val_main_v94_apply, flat_v94 i, wt01]

/-- The scatter index of corner (0, 1) at row s: the destination, a negative one moved up by 8294400. -/
theorem scatterIdx01 (flo : Flo) (j : S8294400x1.Idx) :
    val_main_v103 (F := Ideal) flo j = idxAt flo false true (j 0).val := by
  simp only [
    val_main_v103_apply, val_main_v102_apply, val_main_v99_apply, val_main_v98_apply, val_main_c_21_apply,
    val_main_v101_apply, val_main_v100_apply, val_main_c_22_apply, destFlat01]
  rfl

/-- The update of corner (0, 1) at (s, c): the image entry times the corner's weight. -/
theorem scatterUpd01 (img : Img) (flo : Flo) (j : S8294400x3.Idx) :
    val_main_v97 (F := Ideal) img flo j
      = imgAt img (j 0).val ⟨(j 1).val, idx2_lt1 j⟩ * wtAt flo false true (j 0).val := by
  simp only [val_main_v97_apply, val_main_v96_apply, val_main_v95_apply, wtFlat01, img_at]
  rfl

/-! ## Corner (1, 0) -/

/-- The destination plane of corner (1, 0) at source pixel (n, h, w). -/
theorem dest10 (flo : Flo) (n : Fin 4) (h : Fin 1080) (w : Fin 1920) :
    val_main_v133 (F := Ideal) flo (ix3 n h w) = Cert.Warp.Id flo true false n h w := by
  simp only [
    val_main_v133_apply, val_main_v127_apply, val_main_v124_apply, val_main_v121_apply, val_main_v118_apply,
    val_main_v112_apply, val_main_v110_apply, val_main_v6_apply, val_main_v4_apply, val_main_v109_apply,
    val_main_c_24_apply, val_main_v111_apply, val_main_v9_apply, val_main_v8_apply, val_main_v117_apply,
    val_main_c_26_apply, val_main_v120_apply, val_main_v119_apply, val_main_c_27_apply, val_main_v123_apply,
    val_main_v116_apply, val_main_v114_apply, val_main_v7_apply, val_main_v5_apply, val_main_v113_apply,
    val_main_c_25_apply, val_main_v115_apply, val_main_v11_apply, val_main_v10_apply, val_main_v122_apply,
    val_main_c_28_apply, val_main_v126_apply, val_main_v125_apply, val_main_c_29_apply, val_main_v132_apply,
    val_main_v131_apply, val_main_v130_apply, val_main_v15_apply, val_main_v14_apply, val_main_v12_apply,
    val_main_v13_apply, val_main_c_apply, val_main_v129_apply, val_main_v128_apply, val_main_c_30_apply,
    val_main_call2_v1_apply, val_main_call2_v0_apply, val_main_c_31_apply, x_at, y_at]
  rfl

/-- The weight plane of corner (1, 0) at source pixel (n, h, w). -/
theorem wt10 (flo : Flo) (n : Fin 4) (h : Fin 1080) (w : Fin 1920) :
    val_main_v135 (F := Ideal) flo (ix3 n h w) = Wt flo true false n h w := by
  simp only [
    val_main_v135_apply, val_main_v105_apply, val_main_v4_apply, val_main_v108_apply, val_main_v107_apply,
    val_main_v5_apply, val_main_v106_apply, val_main_cst_23_apply, x_at, y_at]
  rfl

/-- The flattened destination plane at flat position s. -/
theorem destFlat10 (flo : Flo) (i : S8294400.Idx) :
    val_main_v134 (F := Ideal) flo i = Cert.Warp.Id flo true false (cN (i 0).val) (cH (i 0).val) (cW (i 0).val) := by
  rw [val_main_v134_apply, flat_v134 i, dest10]

/-- The flattened weight plane at flat position s. -/
theorem wtFlat10 (flo : Flo) (i : S8294400.Idx) :
    val_main_v136 (F := Ideal) flo i = Wt flo true false (cN (i 0).val) (cH (i 0).val) (cW (i 0).val) := by
  rw [val_main_v136_apply, flat_v136 i, wt10]

/-- The scatter index of corner (1, 0) at row s: the destination, a negative one moved up by 8294400. -/
theorem scatterIdx10 (flo : Flo) (j : S8294400x1.Idx) :
    val_main_v145 (F := Ideal) flo j = idxAt flo true false (j 0).val := by
  simp only [
    val_main_v145_apply, val_main_v144_apply, val_main_v141_apply, val_main_v140_apply, val_main_c_32_apply,
    val_main_v143_apply, val_main_v142_apply, val_main_c_33_apply, destFlat10]
  rfl

/-- The update of corner (1, 0) at (s, c): the image entry times the corner's weight. -/
theorem scatterUpd10 (img : Img) (flo : Flo) (j : S8294400x3.Idx) :
    val_main_v139 (F := Ideal) img flo j
      = imgAt img (j 0).val ⟨(j 1).val, idx2_lt1 j⟩ * wtAt flo true false (j 0).val := by
  simp only [val_main_v139_apply, val_main_v138_apply, val_main_v137_apply, wtFlat10, img_at]
  rfl

/-! ## Corner (1, 1) -/

/-- The destination plane of corner (1, 1) at source pixel (n, h, w). -/
theorem dest11 (flo : Flo) (n : Fin 4) (h : Fin 1080) (w : Fin 1920) :
    val_main_v173 (F := Ideal) flo (ix3 n h w) = Cert.Warp.Id flo true true n h w := by
  simp only [
    val_main_v173_apply, val_main_v167_apply, val_main_v164_apply, val_main_v161_apply, val_main_v158_apply,
    val_main_v152_apply, val_main_v150_apply, val_main_v6_apply, val_main_v4_apply, val_main_v149_apply,
    val_main_c_34_apply, val_main_v151_apply, val_main_v9_apply, val_main_v8_apply, val_main_v157_apply,
    val_main_c_36_apply, val_main_v160_apply, val_main_v159_apply, val_main_c_37_apply, val_main_v163_apply,
    val_main_v156_apply, val_main_v154_apply, val_main_v7_apply, val_main_v5_apply, val_main_v153_apply,
    val_main_c_35_apply, val_main_v155_apply, val_main_v11_apply, val_main_v10_apply, val_main_v162_apply,
    val_main_c_38_apply, val_main_v166_apply, val_main_v165_apply, val_main_c_39_apply, val_main_v172_apply,
    val_main_v171_apply, val_main_v170_apply, val_main_v15_apply, val_main_v14_apply, val_main_v12_apply,
    val_main_v13_apply, val_main_c_apply, val_main_v169_apply, val_main_v168_apply, val_main_c_40_apply,
    val_main_call3_v1_apply, val_main_call3_v0_apply, val_main_c_41_apply, x_at, y_at]
  rfl

/-- The weight plane of corner (1, 1) at source pixel (n, h, w). -/
theorem wt11 (flo : Flo) (n : Fin 4) (h : Fin 1080) (w : Fin 1920) :
    val_main_v175 (F := Ideal) flo (ix3 n h w) = Wt flo true true n h w := by
  simp only [
    val_main_v175_apply, val_main_v147_apply, val_main_v4_apply, val_main_v148_apply, val_main_v5_apply, x_at, y_at]
  rfl

/-- The flattened destination plane at flat position s. -/
theorem destFlat11 (flo : Flo) (i : S8294400.Idx) :
    val_main_v174 (F := Ideal) flo i = Cert.Warp.Id flo true true (cN (i 0).val) (cH (i 0).val) (cW (i 0).val) := by
  rw [val_main_v174_apply, flat_v174 i, dest11]

/-- The flattened weight plane at flat position s. -/
theorem wtFlat11 (flo : Flo) (i : S8294400.Idx) :
    val_main_v176 (F := Ideal) flo i = Wt flo true true (cN (i 0).val) (cH (i 0).val) (cW (i 0).val) := by
  rw [val_main_v176_apply, flat_v176 i, wt11]

/-- The scatter index of corner (1, 1) at row s: the destination, a negative one moved up by 8294400. -/
theorem scatterIdx11 (flo : Flo) (j : S8294400x1.Idx) :
    val_main_v185 (F := Ideal) flo j = idxAt flo true true (j 0).val := by
  simp only [
    val_main_v185_apply, val_main_v184_apply, val_main_v181_apply, val_main_v180_apply, val_main_c_42_apply,
    val_main_v183_apply, val_main_v182_apply, val_main_c_43_apply, destFlat11]
  rfl

/-- The update of corner (1, 1) at (s, c): the image entry times the corner's weight. -/
theorem scatterUpd11 (img : Img) (flo : Flo) (j : S8294400x3.Idx) :
    val_main_v179 (F := Ideal) img flo j
      = imgAt img (j 0).val ⟨(j 1).val, idx2_lt1 j⟩ * wtAt flo true true (j 0).val := by
  simp only [val_main_v179_apply, val_main_v178_apply, val_main_v177_apply, wtFlat11, img_at]
  rfl

end Cert.ReferenceIdeal.RefOperands

end
-- ==== Proof.LibSegmentOps.lean ====
/-
  SEGMENT OPERATIONS READ AT ONE INDEX: what `x[idx]` (a gather of elements or of rows at a column of start indices)
  and a segment sum (a scatter with an `add` body at a column of scatter indices) compute at one index, stated once
  for any sizes.

  A gather of a vector `x : [N]` or of the rows of a matrix `x : [N, C]` at start indices `idx : [E, 1]` reads, at
  result position `e`, the operand at the start index `idx[e, 0]` taken as a signed integer and clamped into
  `[0, N − 1]` (`gather_vec_apply`, `gather_rows_apply`). A scatter at scatter indices `idx : [E, 1]` sends update
  `e` (or update `(e, c)`) to operand position `idx[e, 0]` (or `(idx[e, 0], c)`) exactly when that signed integer is a
  position of the operand, and drops it otherwise (`scatter_vec_target`, `scatter_rows_target`). A scatter whose body
  is the addition of a commutative monoid is, at each operand position, the operand's element plus the sum of the
  updates sent there (`scatter_add_apply`); with all updates `1` it counts them (`scatter_count`, `scatterAdd_ones`).
  Last, three small facts about words, extended reals and index sets used beside them.
-/
import Idealize.ShloMosaic.PureOps
import Idealize.ShloMosaic.Lib.ValueIdx
import Mathlib.Data.BitVec
import Mathlib.Data.EReal.Operations

noncomputable section

open scoped BigOperators

namespace SegmentOps

open Idealize.ShloMosaic Idealize.ShloMosaic.ValueIdx

/-! ## Kept axes -/

/-- An axis in the list is not among the axes kept outside it. -/
theorem not_mem_kept_of_mem {s : Shape} {axes : List (Fin s.rank)} {a : Fin s.rank} (h : a ∈ axes) :
    a ∉ s.kept axes := by
  simp [Shape.kept, h]

/-- An axis outside the list is among the axes kept outside it. -/
theorem mem_kept_of_not_mem {s : Shape} {axes : List (Fin s.rank)} {a : Fin s.rank} (h : a ∉ axes) :
    a ∈ s.kept axes := by
  simp [Shape.kept, h]

/-- Of two axes, axis 1 is not in the list holding axis 0 alone. -/
theorem one_not_mem_zero : (1 : Fin 2) ∉ ([0] : List (Fin 2)) := by decide

/-- Of two axes, axis 0 is not in the list holding axis 1 alone. -/
theorem zero_not_mem_one : (0 : Fin 2) ∉ ([1] : List (Fin 2)) := by decide

/-! ## Gathers at a column of start indices -/

section Gather
variable {α : Type}

/-- The dimension numbers of `x[idx]` for a vector `x : [N]` and start indices `idx : [E, 1]`: the operand's one axis
    is collapsed and indexed by the one component of each start index, the index vector lies on axis 1, every slice
    is one element; the result is `[E]`. -/
abbrev gatherVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the start index `idx[e, 0]`, read signed and clamped into
    `[0, N − 1]`. The start-indices position `(e, 0)` is given as any `k` whose first coordinate is `e` (its second
    coordinate ranges over one value). -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx)
    (k : (⟨2, ![E, 1]⟩ : Shape).Idx) (hk : (k 0).val = (y 0).val) :
    Host.gather (gatherVecDims N E wf) x idx y = x (ix1 ⟨min (idx k).toInt.toNat (N - 1), by omega⟩) := by
  unfold Host.gather
  congr 1
  funext a
  obtain rfl : a = 0 := Subsingleton.elim _ _
  refine Fin.ext ?_
  show (gatherVecDims N E wf).start y idx 0 + (gatherVecDims N E wf).batchCoord y 0
    + (gatherVecDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx y ⟨List.idxOf (0 : Fin 1) (gatherVecDims N E wf).startIndexMap,
      List.idxOf_lt_length_iff.2 (List.mem_singleton.mpr rfl)⟩ = k := by
    funext b; refine Fin.ext ?_
    match b with
    | ⟨0, _⟩ => exact hk.symm
    | ⟨1, _⟩ =>
      have h1 := idx2_lt1 k
      show (0 : Nat) = (k 1).val
      omega
  rw [hsi]
  rfl

/-- The dimension numbers of `x[idx]` for a matrix `x : [N, C]` and start indices `idx : [E, 1]` (a gather of rows):
    the row axis is collapsed and indexed by the one component of each start index, the column axis is the result's
    offset axis 1 with whole-row slices `[1, C]`, the index vector lies on axis 1; the result is `[E, C]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: column `c` of the operand's row at the start index `idx[e, 0]`, read signed and
    clamped into `[0, N − 1]`. The start-indices position `(e, 0)` is given as any `k` whose first coordinate is `e`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx)
    (k : (⟨2, ![E, 1]⟩ : Shape).Idx) (hk : (k 0).val = (y 0).val) :
    Host.gather (gatherRowsDims N E C wf) x idx y
      = x (ix2 (⟨min (idx k).toInt.toNat (N - 1), by omega⟩ : Fin N) (⟨(y 1).val, idx2_lt1 y⟩ : Fin C)) := by
  unfold Host.gather
  congr 1
  funext a
  refine Fin.ext ?_
  match a with
  | ⟨0, _⟩ =>
    show (gatherRowsDims N E C wf).start y idx 0 + (gatherRowsDims N E C wf).batchCoord y 0
      + (gatherRowsDims N E C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx y ⟨List.idxOf (0 : Fin 2) (gatherRowsDims N E C wf).startIndexMap,
        List.idxOf_lt_length_iff.2 (List.mem_singleton.mpr rfl)⟩ = k := by
      funext b; refine Fin.ext ?_
      match b with
      | ⟨0, _⟩ => exact hk.symm
      | ⟨1, _⟩ =>
        have h1 := idx2_lt1 k
        show (0 : Nat) = (k 1).val
        omega
    rw [hsi]
    rfl
  | ⟨1, _⟩ =>
    show (gatherRowsDims N E C wf).start y idx 1 + (gatherRowsDims N E C wf).batchCoord y 1
      + (gatherRowsDims N E C wf).offCoord y 1 = (y 1).val
    have hs : (gatherRowsDims N E C wf).start y idx 1 = 0 := by
      unfold GatherDims.start
      rw [dif_neg (show (1 : Fin 2) ∉ (gatherRowsDims N E C wf).startIndexMap from one_not_mem_zero)]
    have hmem : (1 : Fin 2) ∈ (gatherRowsDims N E C wf).sKept :=
      (GatherDims.mem_sKept _ _).mpr ⟨one_not_mem_zero, List.not_mem_nil⟩
    rw [hs, GatherDims.batchCoord_eq_zero _ _ _ List.not_mem_nil]
    unfold GatherDims.offCoord
    rw [dif_pos hmem]
    simp only [Nat.zero_add]
    rfl

end Gather

/-! ## Scatters at a column of scatter indices: where an update lands -/

section ScatterTarget

/-- The dimension numbers of `x.at[idx].add(v)` for a vector `x : [N]`, scatter indices `idx : [E, 1]` and updates
    `v : [E]`: no window axes, the operand's one axis inserted and indexed by the one component of each scatter
    index, the index vector on axis 1. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- WHERE UPDATE `e` OF A VECTOR SCATTER LANDS: at operand position `i` exactly when the scatter index `idx[e, 0]`,
    read signed, is `i` (an index that is negative or not below `N` is no position: the update is dropped). -/
theorem scatter_vec_target {N E w : Nat} (wf : ScatterDims.WF ⟨1, ![N]⟩ ⟨2, ![E, 1]⟩ ⟨1, ![E]⟩ [] [0] [0] 1)
    (idx : IVec ⟨2, ![E, 1]⟩ w) (y : (⟨1, ![E]⟩ : Shape).Idx)
    (k : (⟨2, ![E, 1]⟩ : Shape).Idx) (hk : (k 0).val = (y 0).val) (i : (⟨1, ![N]⟩ : Shape).Idx) :
    (scatterVecDims N E wf).resultIdx? y idx = some i ↔ (idx k).toInt = ((i 0).val : Int) := by
  have hst : ∀ a, (scatterVecDims N E wf).start y idx a = (idx k).toInt := by
    intro a
    obtain rfl : a = 0 := Subsingleton.elim _ _
    unfold ScatterDims.start
    rw [dif_pos (show (0 : Fin 1) ∈ (scatterVecDims N E wf).scatterDimsToOperandDims from List.mem_singleton.mpr rfl)]
    have hsi : (scatterVecDims N E wf).siIdx y ⟨List.idxOf (0 : Fin 1) (scatterVecDims N E wf).scatterDimsToOperandDims,
        List.idxOf_lt_length_iff.2 (List.mem_singleton.mpr rfl)⟩ = k := by
      funext b; refine Fin.ext ?_
      match b with
      | ⟨0, _⟩ => exact hk.symm
      | ⟨1, _⟩ =>
        have h1 := idx2_lt1 k
        show (0 : Nat) = (k 1).val
        omega
    rw [hsi]
  have hw : ∀ a, (scatterVecDims N E wf).window y a = 0 := by
    intro a
    obtain rfl : a = 0 := Subsingleton.elim _ _
    unfold ScatterDims.window
    rw [dif_neg (show (0 : Fin 1) ∉ (scatterVecDims N E wf).sKept from not_mem_kept_of_mem (List.mem_singleton.mpr rfl))]
  have hi : (i 0).val < N := (i 0).isLt
  unfold ScatterDims.resultIdx?
  constructor
  · intro h
    split at h
    · rename_i hc
      have h0 : ((scatterVecDims N E wf).start y idx 0 + (scatterVecDims N E wf).window y 0).toNat = (i 0).val :=
        congrArg (fun f : (⟨1, ![N]⟩ : Shape).Idx => (f 0).val) (Option.some.inj h)
      have hc0 := hc 0
      rw [hst, hw] at hc0 h0
      omega
    · exact absurd h (by simp)
  · intro h
    have hc : ∀ a, 0 ≤ (scatterVecDims N E wf).start y idx a + (scatterVecDims N E wf).window y a ∧
        (scatterVecDims N E wf).start y idx a + (scatterVecDims N E wf).window y a
          < ((⟨1, ![N]⟩ : Shape).size a : Int) := by
      intro a
      obtain rfl : a = 0 := Subsingleton.elim _ _
      rw [hst, hw]
      show 0 ≤ (idx k).toInt + ((0 : Nat) : Int) ∧ (idx k).toInt + ((0 : Nat) : Int) < (N : Int)
      omega
    rw [dif_pos hc]
    congr 1
    funext a
    obtain rfl : a = 0 := Subsingleton.elim _ _
    refine Fin.ext ?_
    show ((scatterVecDims N E wf).start y idx 0 + (scatterVecDims N E wf).window y 0).toNat = (i 0).val
    rw [hst, hw]
    omega

/-- The dimension numbers of `x.at[idx].add(v)` for a matrix `x : [N, C]`, scatter indices `idx : [E, 1]` and updates
    `v : [E, C]` (a scatter of rows): the updates' column axis 1 is the window axis and goes to the operand's column
    axis, the operand's row axis is inserted and indexed by the one component of each scatter index, the index vector
    on axis 1. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE UPDATE `(e, c)` OF A ROW SCATTER LANDS: at operand position `i` exactly when the scatter index `idx[e, 0]`,
    read signed, is `i`'s row and `c` is `i`'s column (a row index that is negative or not below `N` is no row: the
    update is dropped). -/
theorem scatter_rows_target {N E C w : Nat}
    (wf : ScatterDims.WF ⟨2, ![N, C]⟩ ⟨2, ![E, 1]⟩ ⟨2, ![E, C]⟩ [1] [0] [0] 1)
    (idx : IVec ⟨2, ![E, 1]⟩ w) (y : (⟨2, ![E, C]⟩ : Shape).Idx)
    (k : (⟨2, ![E, 1]⟩ : Shape).Idx) (hk : (k 0).val = (y 0).val) (i : (⟨2, ![N, C]⟩ : Shape).Idx) :
    (scatterRowsDims N E C wf).resultIdx? y idx = some i
      ↔ ((idx k).toInt = ((i 0).val : Int) ∧ (y 1).val = (i 1).val) := by
  have hst0 : (scatterRowsDims N E C wf).start y idx 0 = (idx k).toInt := by
    unfold ScatterDims.start
    rw [dif_pos (show (0 : Fin 2) ∈ (scatterRowsDims N E C wf).scatterDimsToOperandDims from
      List.mem_singleton.mpr rfl)]
    have hsi : (scatterRowsDims N E C wf).siIdx y
        ⟨List.idxOf (0 : Fin 2) (scatterRowsDims N E C wf).scatterDimsToOperandDims,
          List.idxOf_lt_length_iff.2 (List.mem_singleton.mpr rfl)⟩ = k := by
      funext b; refine Fin.ext ?_
      match b with
      | ⟨0, _⟩ => exact hk.symm
      | ⟨1, _⟩ =>
        have h1 := idx2_lt1 k
        show (0 : Nat) = (k 1).val
        omega
    rw [hsi]
  have hst1 : (scatterRowsDims N E C wf).start y idx 1 = 0 := by
    unfold ScatterDims.start
    rw [dif_neg (show (1 : Fin 2) ∉ (scatterRowsDims N E C wf).scatterDimsToOperandDims from one_not_mem_zero)]
  have hw0 : (scatterRowsDims N E C wf).window y 0 = 0 := by
    unfold ScatterDims.window
    rw [dif_neg (show (0 : Fin 2) ∉ (scatterRowsDims N E C wf).sKept from
      not_mem_kept_of_mem (List.mem_singleton.mpr rfl))]
  have hw1 : (scatterRowsDims N E C wf).window y 1 = (y 1).val := by
    unfold ScatterDims.window
    rw [dif_pos (show (1 : Fin 2) ∈ (scatterRowsDims N E C wf).sKept from mem_kept_of_not_mem one_not_mem_zero)]
    rfl
  have hi0 : (i 0).val < N := idx2_lt0 i
  have hi1 : (i 1).val < C := idx2_lt1 i
  have hy1 : (y 1).val < C := idx2_lt1 y
  unfold ScatterDims.resultIdx?
  constructor
  · intro h
    split at h
    · rename_i hc
      have h0 : ((scatterRowsDims N E C wf).start y idx 0 + (scatterRowsDims N E C wf).window y 0).toNat
          = (i 0).val :=
        congrArg (fun f : (⟨2, ![N, C]⟩ : Shape).Idx => (f 0).val) (Option.some.inj h)
      have h1 : ((scatterRowsDims N E C wf).start y idx 1 + (scatterRowsDims N E C wf).window y 1).toNat
          = (i 1).val :=
        congrArg (fun f : (⟨2, ![N, C]⟩ : Shape).Idx => (f 1).val) (Option.some.inj h)
      have hc0 := hc 0
      rw [hst0, hw0] at hc0 h0
      rw [hst1, hw1] at h1
      omega
    · exact absurd h (by simp)
  · rintro ⟨h, h'⟩
    have hc : ∀ a, 0 ≤ (scatterRowsDims N E C wf).start y idx a + (scatterRowsDims N E C wf).window y a ∧
        (scatterRowsDims N E C wf).start y idx a + (scatterRowsDims N E C wf).window y a
          < ((⟨2, ![N, C]⟩ : Shape).size a : Int) := by
      intro a
      match a with
      | ⟨0, _⟩ =>
        show 0 ≤ (scatterRowsDims N E C wf).start y idx 0 + (scatterRowsDims N E C wf).window y 0 ∧
          (scatterRowsDims N E C wf).start y idx 0 + (scatterRowsDims N E C wf).window y 0 < (N : Int)
        rw [hst0, hw0]
        omega
      | ⟨1, _⟩ =>
        show 0 ≤ (scatterRowsDims N E C wf).start y idx 1 + (scatterRowsDims N E C wf).window y 1 ∧
          (scatterRowsDims N E C wf).start y idx 1 + (scatterRowsDims N E C wf).window y 1 < (C : Int)
        rw [hst1, hw1]
        omega
    rw [dif_pos hc]
    congr 1
    funext a
    refine Fin.ext ?_
    match a with
    | ⟨0, _⟩ =>
      show ((scatterRowsDims N E C wf).start y idx 0 + (scatterRowsDims N E C wf).window y 0).toNat = (i 0).val
      rw [hst0, hw0]
      omega
    | ⟨1, _⟩ =>
      show ((scatterRowsDims N E C wf).start y idx 1 + (scatterRowsDims N E C wf).window y 1).toNat = (i 1).val
      rw [hst1, hw1]
      omega

end ScatterTarget

/-! ## A scatter that adds: the operand's element plus the sum of the updates that land on it -/

section ScatterAdd

/-- The scatter's fold over any list of update positions, read at operand position `i`: the starting element plus the
    sum, over the list, of the updates whose target is `i`. By induction on the list: one step changes the element at
    `i` exactly when its update lands on `i`, adding that update. -/
theorem foldl_scatter_add_apply {α : Type} [AddCommMonoid α] {s si u : Shape} {w : Nat} (d : ScatterDims s si u)
    (idx : IVec si w) (upd : u.Idx → α) (i : s.Idx) (l : List (Fin u.numel)) (x : s.Idx → α) :
    (l.foldl (fun r n =>
        match d.resultIdx? (u.rowMajor.symm n) idx with
        | some i => fun i' => if i' = i then r i + upd (u.rowMajor.symm n) else r i'
        | none => r) x) i
      = x i + (l.map fun n =>
          if d.resultIdx? (u.rowMajor.symm n) idx = some i then upd (u.rowMajor.symm n) else 0).sum := by
  induction l generalizing x with
  | nil => simp
  | cons n l ih =>
    rw [List.foldl_cons, ih, List.map_cons, List.sum_cons, ← add_assoc]
    congr 1
    rcases hres : d.resultIdx? (u.rowMajor.symm n) idx with _ | i'
    · simp
    · by_cases hii : i = i'
      · subst hii; simp
      · simp [hii, Ne.symm hii]

/-- A SCATTER WITH AN ADDING BODY READ AT `i`: the operand's element plus the sum of the updates whose target is `i`
    (updates landing outside the operand contribute nothing). The fold over the row-major list of update positions is
    the sum over that list, a sum over the positions `Fin u.numel`, re-indexed by the row-major bijection to the
    updates' index set. In a commutative monoid the order of the updates does not matter. -/
theorem scatter_add_apply {α : Type} [AddCommMonoid α] {s si u : Shape} {w : Nat} (d : ScatterDims s si u)
    (x : s.Idx → α) (idx : IVec si w) (upd : u.Idx → α) (i : s.Idx) :
    Host.scatter d (fun a b => a + b) x idx upd i
      = x i + ∑ j ∈ Finset.univ.filter (fun j => d.resultIdx? j idx = some i), upd j := by
  unfold Host.scatter
  refine (foldl_scatter_add_apply d idx upd i (List.finRange u.numel) x).trans ?_
  congr 1
  rw [Finset.sum_filter,
    ← Equiv.sum_comp u.rowMajor.symm (fun j => if d.resultIdx? j idx = some i then upd j else 0),
    Fin.sum_univ_def]

/-- The same for words: the integer addition of `arith.addi` is the addition of the words' commutative ring. -/
theorem scatter_addi_apply {m : Nat} {s si u : Shape} {w : Nat} (d : ScatterDims s si u)
    (x : s.Idx → BitVec m) (idx : IVec si w) (upd : u.Idx → BitVec m) (i : s.Idx) :
    Host.scatter d IntOp.addi x idx upd i
      = x i + ∑ j ∈ Finset.univ.filter (fun j => d.resultIdx? j idx = some i), upd j :=
  scatter_add_apply d x idx upd i

/-- COUNTING BY A WORD SCATTER: adding the word `1` for every update into zeros leaves, at `i`, the number of updates
    whose target is `i`, as a 32-bit word. -/
theorem scatter_count {s si u : Shape} {w : Nat} (d : ScatterDims s si u) (idx : IVec si w) (i : s.Idx) :
    Host.scatter d IntOp.addi (fun _ => (0#32 : BitVec 32)) idx (fun _ => 1#32) i
      = BitVec.ofNat 32 (Finset.univ.filter (fun j : u.Idx => d.resultIdx? j idx = some i)).card := by
  rw [scatter_addi_apply, Finset.sum_const, nsmul_eq_mul]
  simp [BitVec.natCast_eq_ofNat]

/-- COUNTING BY AN EXTENDED-REAL SCATTER: adding `1` for every update into zeros leaves, at `i`, the number of updates
    whose target is `i`, as a real number. -/
theorem scatterAdd_ones {s si u : Shape} {w : Nat} (d : ScatterDims s si u) (idx : IVec si w) (i : s.Idx) :
    Ideal.hostScatterAdd d (fun _ => (0 : EReal)) idx (fun _ => (1 : EReal)) i
      = (((Finset.univ.filter (fun j : u.Idx => d.resultIdx? j idx = some i)).card : ℝ) : EReal) := by
  unfold Ideal.hostScatterAdd
  rw [Finset.sum_const, nsmul_one, zero_add, EReal.coe_natCast]

end ScatterAdd

/-! ## Words, extended reals, index sets -/

/-- A natural number below `2 ^ 31`, as a 32-bit word, reads back as itself when the word is read signed. -/
theorem toInt_ofNat_of_lt (n : Nat) (h : n < 2 ^ 31) : (BitVec.ofNat 32 n).toInt = (n : Int) := by
  have hm : n % 2 ^ 32 = n := Nat.mod_eq_of_lt (by omega)
  unfold BitVec.toInt
  rw [BitVec.toNat_ofNat, hm]
  split <;> omega

/-- A nonnegative real factor distributes over a finite sum of extended reals, whatever the terms: it is
    nonnegative and not `⊤`, so it distributes over each sum of two extended reals. -/
theorem mul_sum_of_nonneg_real {ι : Type} (s : Finset ι) (c : ℝ) (hc : 0 ≤ c) (f : ι → EReal) :
    (c : EReal) * ∑ j ∈ s, f j = ∑ j ∈ s, (c : EReal) * f j := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A set of indices of a shape cut out by a condition has at most as many elements as the shape. -/
theorem card_idx_filter_le {u : Shape} (p : u.Idx → Prop) [DecidablePred p] :
    (Finset.univ.filter p).card ≤ u.numel :=
  (Finset.card_filter_le _ _).trans (by rw [Finset.card_univ, Shape.card_idx])

/-! ## The update positions that land on one element

The set is named once; the counting and summing facts above are restated over it. -/

section Targets
variable {s si u : Shape} {w : Nat}

/-- The update positions whose result index is `i`. -/
def targets (d : ScatterDims s si u) (idx : IVec si w) (i : s.Idx) : Finset u.Idx :=
  Finset.univ.filter (fun j : u.Idx => d.resultIdx? j idx = some i)

theorem mem_targets (d : ScatterDims s si u) (idx : IVec si w) (i : s.Idx) (j : u.Idx) :
    j ∈ targets d idx i ↔ d.resultIdx? j idx = some i := by
  unfold targets; rw [Finset.mem_filter]; exact ⟨fun h => h.2, fun h => ⟨Finset.mem_univ _, h⟩⟩

/-- Adding ones in 32-bit integers counts the positions that land on `i`. -/
theorem scatter_count_targets (d : ScatterDims s si u) (idx : IVec si w) (i : s.Idx) :
    Host.scatter d IntOp.addi (fun _ => (0#32 : BitVec 32)) idx (fun _ => 1#32) i
      = BitVec.ofNat 32 (targets d idx i).card := scatter_count d idx i

/-- Adding ones on the extended reals counts them too. -/
theorem scatterAdd_ones_targets (d : ScatterDims s si u) (idx : IVec si w) (i : s.Idx) :
    Ideal.hostScatterAdd d (fun _ => (0 : EReal)) idx (fun _ => (1 : EReal)) i
      = (((targets d idx i).card : ℝ) : EReal) := scatterAdd_ones d idx i

/-- The accumulating scatter on the extended reals at `i`: the operand's element plus the updates that land there. -/
theorem hostScatterAdd_targets (d : ScatterDims s si u) (x : s.Idx → EReal) (idx : IVec si w) (upd : u.Idx → EReal)
    (i : s.Idx) : Ideal.hostScatterAdd d x idx upd i = x i + ∑ j ∈ targets d idx i, upd j := rfl

/-- The same two facts for the host operation as programs spell it. -/
theorem Host_scatterAdd_targets (d : ScatterDims s si u) (x : s.Idx → EReal) (idx : IVec si w) (upd : u.Idx → EReal)
    (i : s.Idx) :
    Host.scatterAdd (F := Ideal) (φ := .f32) d x idx upd i = x i + ∑ j ∈ targets d idx i, upd j := rfl

theorem Host_scatterAdd_ones_targets (d : ScatterDims s si u) (idx : IVec si w) (i : s.Idx) :
    Host.scatterAdd (F := Ideal) (φ := .f32) d (fun _ => (0 : EReal)) idx (fun _ => (1 : EReal)) i
      = (((targets d idx i).card : ℝ) : EReal) := scatterAdd_ones d idx i

theorem card_targets_le (d : ScatterDims s si u) (idx : IVec si w) (i : s.Idx) : (targets d idx i).card ≤ u.numel :=
  card_idx_filter_le _

end Targets

end SegmentOps

end
-- ==== Proof.LibScatterStack.lean ====
/-
  ONE SCATTER-ADD OF A STACKED BATCH AGAINST FOUR SUCCESSIVE SCATTER-ADDS OF ITS BATCHES.

  Take an array `x : [N, C]` and four batches of `E` update rows `upd k : [E, C]` with scatter indices
  `idx k : [E, 1]` (`k < 4`). Stack them: the stacked batch has `M = 4 * E` rows, and its row `k * E + e` is row `e` of
  batch `k`, for the updates and for the scatter indices alike. Then `x.at[IDX].add(UPD)` (one scatter of the stacked
  batch) and `x.at[idx 0].add(upd 0).at[idx 1].add(upd 1).at[idx 2].add(upd 2).at[idx 3].add(upd 3)` (four scatters,
  one after the other) are the same array on the extended reals (`scatterAdd_stacked`).

  The reason: a scatter that adds leaves, at each element, the operand's element plus the sum of the updates that land
  there. The rows of the stacked batch are in bijection with the pairs (batch, row of the batch) (`blockEquiv`), a sum
  over the stacked rows is the double sum over the pairs (`sum_stacked`), a stacked update lands on an element exactly
  when the update of its batch does (`target_stacked`), so the stacked sum of landing updates is the sum of the four
  batches' sums (`sum_targets_stacked`); and addition on the extended reals is commutative and associative, which is
  all that is used (no finiteness). The sizes enter only through the equation `M = 4 * E` and through the values of
  coordinates, so the statement applies to sizes given as numerals.
-/
import proofs.«122328_j53472342835318_2_alg».proof.Proof.LibSegmentOps

noncomputable section

open scoped BigOperators

namespace ScatterStack

open Idealize.ShloMosaic Idealize.ShloMosaic.ValueIdx

/-! ## The block bijection -/

/-- Row `e` of batch `k` is row `k * E + e` of the stacked batch: the bijection between the pairs `(k, e)` with
    `k < 4`, `e < E` and the numbers below `M = 4 * E`. -/
def blockEquiv {E M : Nat} (hM : M = 4 * E) : Fin 4 × Fin E ≃ Fin M :=
  finProdFinEquiv.trans (finCongr hM.symm)

theorem blockEquiv_val {E M : Nat} (hM : M = 4 * E) (k : Fin 4) (e : Fin E) :
    (blockEquiv hM (k, e)).val = k.val * E + e.val := by
  show e.val + E * k.val = k.val * E + e.val
  rw [Nat.mul_comm, Nat.add_comm]

/-- A sum over the rows of the stacked batch is the sum, over the four batches, of the sums over each batch's
    rows. -/
theorem sum_stacked {α : Type} [AddCommMonoid α] {E M C : Nat} (hM : M = 4 * E)
    (f : (⟨2, ![M, C]⟩ : Shape).Idx → α) :
    ∑ J, f J = ∑ k : Fin 4, ∑ j : (⟨2, ![E, C]⟩ : Shape).Idx, f (ix2 (blockEquiv hM (k, j 0)) (j 1)) := by
  rw [sum_idx2, ← Equiv.sum_comp (blockEquiv hM), Fintype.sum_prod_type]
  refine Finset.sum_congr rfl fun k _ => ?_
  rw [sum_idx2]
  rfl

/-! ## One scatter of the stacked batch against four scatters of the batches -/

section Stacked
variable {N E M C : Nat}

/-- The landing condition of the stacked scatter at row `k * E + e` is the landing condition of batch `k`'s scatter
    at row `e`, when the stacked scatter indices are the batches' scatter indices stacked. -/
theorem target_stacked (hM : M = 4 * E)
    (wfD : ScatterDims.WF ⟨2, ![N, C]⟩ ⟨2, ![M, 1]⟩ ⟨2, ![M, C]⟩ [1] [0] [0] 1)
    (wfd : ScatterDims.WF ⟨2, ![N, C]⟩ ⟨2, ![E, 1]⟩ ⟨2, ![E, C]⟩ [1] [0] [0] 1)
    (IDX : IVec ⟨2, ![M, 1]⟩ 32) (idx : Fin 4 → IVec ⟨2, ![E, 1]⟩ 32)
    (hidx : ∀ (k : Fin 4) (J : (⟨2, ![M, 1]⟩ : Shape).Idx) (j : (⟨2, ![E, 1]⟩ : Shape).Idx),
      (J 0).val = k.val * E + (j 0).val → IDX J = idx k j)
    (k : Fin 4) (j : (⟨2, ![E, C]⟩ : Shape).Idx) (i : (⟨2, ![N, C]⟩ : Shape).Idx) :
    (SegmentOps.scatterRowsDims N M C wfD).resultIdx? (ix2 (blockEquiv hM (k, j 0)) (j 1)) IDX = some i
      ↔ (SegmentOps.scatterRowsDims N E C wfd).resultIdx? j (idx k) = some i := by
  rw [SegmentOps.scatter_rows_target wfD IDX _ (ix2 (blockEquiv hM (k, j 0)) (0 : Fin 1)) rfl i,
    SegmentOps.scatter_rows_target wfd (idx k) j (ix2 (j 0) (0 : Fin 1)) rfl i,
    hidx k (ix2 (blockEquiv hM (k, j 0)) (0 : Fin 1)) (ix2 (j 0) (0 : Fin 1)) (blockEquiv_val hM k (j 0))]
  exact Iff.rfl

/-- The updates of the stacked batch that land on `i` add up to the sum, over the four batches, of each batch's
    updates that land on `i`. -/
theorem sum_targets_stacked (hM : M = 4 * E)
    (wfD : ScatterDims.WF ⟨2, ![N, C]⟩ ⟨2, ![M, 1]⟩ ⟨2, ![M, C]⟩ [1] [0] [0] 1)
    (wfd : ScatterDims.WF ⟨2, ![N, C]⟩ ⟨2, ![E, 1]⟩ ⟨2, ![E, C]⟩ [1] [0] [0] 1)
    (IDX : IVec ⟨2, ![M, 1]⟩ 32) (UPD : (⟨2, ![M, C]⟩ : Shape).Idx → EReal)
    (idx : Fin 4 → IVec ⟨2, ![E, 1]⟩ 32) (upd : Fin 4 → (⟨2, ![E, C]⟩ : Shape).Idx → EReal)
    (hidx : ∀ (k : Fin 4) (J : (⟨2, ![M, 1]⟩ : Shape).Idx) (j : (⟨2, ![E, 1]⟩ : Shape).Idx),
      (J 0).val = k.val * E + (j 0).val → IDX J = idx k j)
    (hupd : ∀ (k : Fin 4) (J : (⟨2, ![M, C]⟩ : Shape).Idx) (j : (⟨2, ![E, C]⟩ : Shape).Idx),
      (J 0).val = k.val * E + (j 0).val → (J 1).val = (j 1).val → UPD J = upd k j)
    (i : (⟨2, ![N, C]⟩ : Shape).Idx) :
    ∑ J ∈ SegmentOps.targets (SegmentOps.scatterRowsDims N M C wfD) IDX i, UPD J
      = ∑ k : Fin 4, ∑ j ∈ SegmentOps.targets (SegmentOps.scatterRowsDims N E C wfd) (idx k) i, upd k j := by
  unfold SegmentOps.targets
  rw [Finset.sum_filter, sum_stacked hM]
  refine Finset.sum_congr rfl fun k _ => ?_
  rw [Finset.sum_filter]
  refine Finset.sum_congr rfl fun j _ => ?_
  rw [hupd k (ix2 (blockEquiv hM (k, j 0)) (j 1)) j (blockEquiv_val hM k (j 0)) rfl]
  exact if_congr (target_stacked hM wfD wfd IDX idx hidx k j i) rfl rfl

/-- ONE SCATTER-ADD OF THE STACKED BATCH IS FOUR SUCCESSIVE SCATTER-ADDS OF THE BATCHES. Into `x : [N, C]`, adding
    the `M = 4 * E` update rows of the stacked batch at their scatter indices gives the same array as adding the
    `E` update rows of batch 0, then of batch 1, of batch 2 and of batch 3, when row `k * E + e` of the stacked
    updates and of the stacked scatter indices is row `e` of batch `k`'s. At each element both sides are the
    operand's element plus the sum of all the updates that land there; on the extended reals addition is
    commutative and associative, so the grouping into batches does not matter (no finiteness is used). -/
theorem scatterAdd_stacked (hM : M = 4 * E)
    (wfD : ScatterDims.WF ⟨2, ![N, C]⟩ ⟨2, ![M, 1]⟩ ⟨2, ![M, C]⟩ [1] [0] [0] 1)
    (wfd : ScatterDims.WF ⟨2, ![N, C]⟩ ⟨2, ![E, 1]⟩ ⟨2, ![E, C]⟩ [1] [0] [0] 1)
    (X : (⟨2, ![N, C]⟩ : Shape).Idx → EReal)
    (IDX : IVec ⟨2, ![M, 1]⟩ 32) (UPD : (⟨2, ![M, C]⟩ : Shape).Idx → EReal)
    (idx : Fin 4 → IVec ⟨2, ![E, 1]⟩ 32) (upd : Fin 4 → (⟨2, ![E, C]⟩ : Shape).Idx → EReal)
    (hidx : ∀ (k : Fin 4) (J : (⟨2, ![M, 1]⟩ : Shape).Idx) (j : (⟨2, ![E, 1]⟩ : Shape).Idx),
      (J 0).val = k.val * E + (j 0).val → IDX J = idx k j)
    (hupd : ∀ (k : Fin 4) (J : (⟨2, ![M, C]⟩ : Shape).Idx) (j : (⟨2, ![E, C]⟩ : Shape).Idx),
      (J 0).val = k.val * E + (j 0).val → (J 1).val = (j 1).val → UPD J = upd k j) :
    Host.scatterAdd (F := Ideal) (φ := .f32) (SegmentOps.scatterRowsDims N M C wfD) X IDX UPD
      = Host.scatterAdd (F := Ideal) (φ := .f32) (SegmentOps.scatterRowsDims N E C wfd)
          (Host.scatterAdd (F := Ideal) (φ := .f32) (SegmentOps.scatterRowsDims N E C wfd)
            (Host.scatterAdd (F := Ideal) (φ := .f32) (SegmentOps.scatterRowsDims N E C wfd)
              (Host.scatterAdd (F := Ideal) (φ := .f32) (SegmentOps.scatterRowsDims N E C wfd) X (idx 0) (upd 0))
              (idx 1) (upd 1)) (idx 2) (upd 2)) (idx 3) (upd 3) := by
  funext i
  simp only [SegmentOps.Host_scatterAdd_targets]
  rw [sum_targets_stacked hM wfD wfd IDX UPD idx upd hidx hupd i, Fin.sum_univ_four]
  simp only [add_assoc]

end Stacked

end ScatterStack

end
-- ==== Proof.Bridge.lean ====
/-
  The two programs end with the same array.

  The kernel scatter-adds ONE batch of 4·8294400 update rows, row k·8294400 + s being corner k's row for the source
  pixel at flat position s; the reference scatter-adds four batches of 8294400 rows, corner after corner. Row for row
  the scatter index is the same word (the corner's destination, a negative one counted from the end) and the update
  is the same product up to the order of its two factors (weight · image against image · weight). A scatter-add
  leaves, at each position, the start value plus the sum of the updates that land there, and a sum over the stacked
  batch is the sum over the corners of the sums over each batch: only the commutativity and associativity of the
  extended reals' addition and multiplication are used, so no finiteness of the inputs is needed.
-/
import proofs.«122328_j53472342835318_2_alg».proof.Proof.KernelTail
import proofs.«122328_j53472342835318_2_alg».proof.Proof.RefOperands
import proofs.«122328_j53472342835318_2_alg».proof.Proof.LibScatterStack

set_option maxRecDepth 16384

noncomputable section

namespace Cert.Bridge

open Idealize.ShloMosaic Idealize.ShloMosaic.ValueIdx Idealize.ShloMosaic.TcCoe Idealize.SL.Sem
open Cert.Warp Cert.KernelIdeal.Tail Cert.KernelIdeal.Blocks
open Cert.ReferenceIdeal.Read Cert.ReferenceIdeal.RefOperands

/-- Row J = k·8294400 + s of the stacked operands is row s of corner k's: its source position and its corner. -/
theorem row_split (k : Fin 4) (J s : Nat) (hs : s < 8294400) (h : J = k.val * 8294400 + s) :
    J % 8294400 = s ∧ kOf J = k := by
  have hk : k.val < 4 := k.isLt
  refine ⟨by omega, Fin.ext ?_⟩
  show J / 8294400 % 4 = k.val
  omega

/-- THE ACCUMULATORS AGREE: the kernel's one scatter-add of the stacked rows is the reference's four scatter-adds. -/
theorem acc_eq (img : Img) (flo : Flo) :
    accK img (weights flo) (dests flo) = val_main_v186 (F := Ideal) img flo := by
  unfold accK
  refine (ScatterStack.scatterAdd_stacked (N := 8294400) (E := 8294400) (M := 33177600) (C := 3) (by norm_num)
    (Cert.KernelIdeal.scatter_S8294400x3_S33177600x1_S33177600x3_1_0_0_1).wf
    (Cert.ReferenceIdeal.scatter_S8294400x3_S8294400x1_S8294400x3_1_0_0_1).wf
    zerosK (idxK (dests flo)) (updK img (weights flo))
    (fun k j => idxAt flo (cornerX k) (cornerY k) (j 0).val)
    (fun k j => imgAt img (j 0).val ⟨(j 1).val, idx2_lt1 j⟩ * wtAt flo (cornerX k) (cornerY k) (j 0).val)
    ?_ ?_).trans ?_
  · intro k J j h
    obtain ⟨e1, e2⟩ := row_split k (J 0).val (j 0).val (idx2_lt0 j) h
    rw [idxK_at, e1, e2]
    rfl
  · intro k J j h h1
    obtain ⟨e1, e2⟩ := row_split k (J 0).val (j 0).val (idx2_lt0 j) h
    have e3 : (⟨(J 1).val, idx2_lt1 J⟩ : Fin 3) = ⟨(j 1).val, idx2_lt1 j⟩ := Fin.ext h1
    rw [updK_at, e1, e2, e3]
    exact mul_comm _ _
  · unfold val_main_v186 val_main_v146 val_main_v104 val_main_v62
    rw [funext (scatterIdx00 flo), funext (scatterIdx01 flo), funext (scatterIdx10 flo), funext (scatterIdx11 flo),
      funext (scatterUpd00 img flo), funext (scatterUpd01 img flo), funext (scatterUpd10 img flo), funext (scatterUpd11 img flo)]
    rfl

/-- So the kernel's result, after its host tail, is the reference's result term of the same arguments. -/
theorem result_eq (img : Img) (flo : Flo) :
    outOf (accK img (weights flo) (dests flo)) = val_main_v188 (F := Ideal) img flo :=
  (congrArg outOf (acc_eq img flo)).trans rfl

open Cert.KernelIdeal Cert.KernelIdeal.Gen in
/-- THE KERNEL'S RUN, read: every weakly fair execution terminates with the result buffer at the reference's result
    term of the launched image and displacement field, and both arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v21)
            = val_main_v188 (F := Ideal) (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono (fun r h c =>
      ⟨((h c).2 main_v21 (Pipeline.mem_restRefs_of main_v21 (by decide) (by decide))).trans
          ((Cert.KernelIdeal.Tail.result_eq m c).trans (result_eq (imgOf m c) (floOf m c))),
        ((h c).2 main_arg0 (Pipeline.mem_restRefs_of main_arg0 (by decide) (by decide))).trans (GenP.W_main_arg0 m (GenP.dats m) c),
        ((h c).1 0).trans (((GenP.dats m 0 c).arrAt_in 0 rfl _).trans ((GenP.A_eq m c 0).trans (GenP.V_main_arg1 m c)))⟩)
    (GenP.run_main m ρ)

end Cert.Bridge

end
-- ==== Proof.lean ====
/-
  Bilinear forward splatting: the kernel against its reference, at the extended reals.

  Both programs move every source pixel (n, h, w) of an image [4, 3, 1080, 1920] by the displacement
  (x, y) = (flo[n,1,h,w], flo[n,0,h,w]) and add it, weighted, onto the four pixels around (h + x, w + y): corner
  (d, d') has row ⌊x⌋ + d + h, column ⌊y⌋ + d' + w and the product of the axis weights (lower neighbour
  (⌊x⌋ + 1) − x, upper neighbour x − ⌊x⌋); a corner outside the image is dropped.

  The kernel computes the four weight planes and the four destination planes in one region, 40 rows at a grid point,
  and then scatter-adds ALL corners' rows weight · image in ONE scatter; the reference computes each corner's planes
  with whole-array operations and scatter-adds image · weight corner after corner. At every index the planes agree
  (they are the same scalar formulas), so both results are, position by position, zero plus the sum of the same
  updates, grouped differently. Addition and multiplication of extended reals are commutative and associative, so the
  two results are equal for ALL inputs: the finiteness of the inputs is not used.

  The frames: the kernel's two programs by their frame modules, the reference's by its run. The idealization
  rewrote nothing, so its claim is trivial.
-/
import proofs.«122328_j53472342835318_2_alg».proof.Defs
import proofs.«122328_j53472342835318_2_alg».proof.Proof.Gen.Kernel
import proofs.«122328_j53472342835318_2_alg».proof.Proof.Gen.Kernel.Skeleton
import proofs.«122328_j53472342835318_2_alg».proof.Proof.Gen.Kernel.Launch
import proofs.«122328_j53472342835318_2_alg».proof.Proof.Gen.Kernel.Points
import proofs.«122328_j53472342835318_2_alg».proof.Proof.FrameKernel
import proofs.«122328_j53472342835318_2_alg».proof.Proof.Gen.KernelIdeal
import proofs.«122328_j53472342835318_2_alg».proof.Proof.Gen.KernelIdeal.Skeleton
import proofs.«122328_j53472342835318_2_alg».proof.Proof.Gen.KernelIdeal.Launch
import proofs.«122328_j53472342835318_2_alg».proof.Proof.Gen.KernelIdeal.Points
import proofs.«122328_j53472342835318_2_alg».proof.Proof.FrameKernelIdeal
import proofs.«122328_j53472342835318_2_alg».proof.Proof.Gen.ReferenceIdeal
import proofs.«122328_j53472342835318_2_alg».proof.Proof.Gen.ReferenceIdeal.Run
import proofs.«122328_j53472342835318_2_alg».proof.Proof.Gen.ReferenceIdeal.Read
import proofs.«122328_j53472342835318_2_alg».proof.Proof.Gen.Pre_finite_inputs
import proofs.«122328_j53472342835318_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.GenP.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the image and the displacement field both programs end with the reference's result
    term of those two arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v188_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
